-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S200000 : Shape := ⟨1, ![200000]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S200000 : S_.BroadcastsInDim S200000 (![] : Fin 0 → Fin S200000.rank)
  reducesTo_S200000_S_d0 : S200000.ReducesTo [0] S_

variable [Facts]

def fn {F : FTy → Type} [FloatOps F] (main_arg0 : FVec F S200000x128 .f32) (main_arg1 : IVec S200000 32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_c_0 : IVec S_ 32 := constantI S_ 32 4294967295#32
  let main_v4 : IVec S200000 32 := broadcastInDim S200000 ![] bcast_S_S200000 main_c_0
  let main_v5 : IVec S200000 1 := cmpi .eq main_arg1 main_v4
  let main_c_1 : IVec S_ 32 := constantI S_ 32 1#32
  let main_v6 : IVec S200000 32 := broadcastInDim S200000 ![] bcast_S_S200000 main_c_1
  let main_v7 : IVec S200000 1 := cmpi .eq main_arg1 main_v6
  let main_v8 : IVec S200000 1 := ori main_v5 main_v7
  let main_c_2 : IVec S_ 1 := constantI S_ 1 1#1
  let main_v9 : IVec S_ 1 := (fun x v => Host.reduce IntOp.andi x v reducesTo_S200000_S_d0 h_S_) main_v8 main_c_2
  let main_v10 : IVec S_ 1 := andi main_v3 main_v9
  main_v10
-- ==== Kernel.lean ====
abbrev S200000x128 : Shape := ⟨2, ![200000, 128]⟩
abbrev S200000 : Shape := ⟨1, ![200000]⟩
abbrev S8x1x25000 : Shape := ⟨3, ![8, 1, 25000]⟩
abbrev S2x1x128 : Shape := ⟨3, ![2, 1, 128]⟩
abbrev S2x1x1 : Shape := ⟨3, ![2, 1, 1]⟩
abbrev S25000x128 : Shape := ⟨2, ![25000, 128]⟩
abbrev S1x1x25000 : Shape := ⟨3, ![1, 1, 25000]⟩
abbrev S1x1x128 : Shape := ⟨3, ![1, 1, 128]⟩
abbrev S1x1x1 : Shape := ⟨3, ![1, 1, 1]⟩
abbrev S1x128 : Shape := ⟨2, ![1, 128]⟩
abbrev S1x1 : Shape := ⟨2, ![1, 1]⟩
abbrev S1x25000 : Shape := ⟨2, ![1, 25000]⟩
abbrev S1 : Shape := ⟨1, ![1]⟩
abbrev S_ : Shape := ⟨0, ![]⟩
abbrev S128 : Shape := ⟨1, ![128]⟩

abbrev nBuf : Space → Nat
  | .hbm => 46
  | .vmem => 19
  | .smem => 0
  | _ => 0

abbrev bufTy : (tb : Table) → Fin (tcTables nBuf tb) → BufTy
  | .hbm, ⟨0, _⟩ => ⟨S200000x128, .f32⟩
  | .hbm, ⟨1, _⟩ => ⟨S200000, .i32⟩
  | .hbm, ⟨2, _⟩ => ⟨S8x1x25000, .i32⟩
  | .hbm, ⟨3, _⟩ => ⟨S2x1x128, .f32⟩
  | .hbm, ⟨4, _⟩ => ⟨S2x1x128, .f32⟩
  | .hbm, ⟨5, _⟩ => ⟨S2x1x1, .f32⟩
  | .hbm, ⟨6, _⟩ => ⟨S2x1x1, .f32⟩
  | .hbm, ⟨7, _⟩ => ⟨S2x1x1, .f32⟩
  | .hbm, ⟨8, _⟩ => ⟨S_, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S128, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S128, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .local _ .vmem, ⟨0, _⟩ => ⟨S25000x128, .f32⟩
  | .local _ .vmem, ⟨1, _⟩ => ⟨S25000x128, .f32⟩
  | .local _ .vmem, ⟨2, _⟩ => ⟨S1x1x25000, .i32⟩
  | .local _ .vmem, ⟨3, _⟩ => ⟨S1x1x25000, .i32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x1x1, .f32⟩
  | .local _ .vmem, ⟨9, _⟩ => ⟨S1x1x1, .f32⟩
  | .local _ .vmem, ⟨10, _⟩ => ⟨S1x1x1, .f32⟩
  | .local _ .vmem, ⟨11, _⟩ => ⟨S1x1x1, .f32⟩
  | .local _ .vmem, ⟨12, _⟩ => ⟨S1x1x1, .f32⟩
  | .local _ .vmem, ⟨13, _⟩ => ⟨S1x1x1, .f32⟩
  | .local _ .vmem, ⟨14, _⟩ => ⟨S1x128, .f32⟩
  | .local _ .vmem, ⟨15, _⟩ => ⟨S1x128, .f32⟩
  | .local _ .vmem, ⟨16, _⟩ => ⟨S1x1, .f32⟩
  | .local _ .vmem, ⟨17, _⟩ => ⟨S1x1, .f32⟩
  | .local _ .vmem, ⟨18, _⟩ => ⟨S1x1, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_cst_3 : Ref sig .tc := ⟨.hbm, 16, rfl⟩
abbrev main_v6 : Ref sig .tc := ⟨.hbm, 17, rfl⟩
abbrev main_cst_4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_5 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v47 : BitVec 1 := Scalar.cmpi .eq arg1 c3_i32
  let v48 : BitVec 32 := Scalar.extui v47
  let c0_i32_32 : BitVec 32 := 0#32
  let v49 : BitVec 1 := Scalar.cmpi .ne v48 c0_i32_32
  v49

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S25000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x25000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S200000_S8x1x25000 : S200000.ShapeCasts S8x1x25000
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S25000x128_S25000x128_0_0 : ∀ a, (![0, 0] : Fin 2 → Nat) a + S25000x128.size a ≤ S25000x128.size a
  h_S25000x128 : 0 < S25000x128.numel
  inb_S1x1x25000_S1x1x25000_0_0_0 : ∀ a, (![0, 0, 0] : Fin 3 → Nat) a + S1x1x25000.size a ≤ S1x1x25000.size a
  h_S1x1x25000 : 0 < S1x1x25000.numel
  shapeCasts_S1x1x25000_S1x25000 : S1x1x25000.ShapeCasts S1x25000
  natLt_1_32 : 1 < 32
  reduces_S1x128_S1 : S1x128.Reduces [1] S1
  shapeCasts_S1_S1x1 : S1.ShapeCasts S1x1
  reduces_S1x25000_S1 : S1x25000.Reduces [1] S1
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x128_S128_d0_1 : S2x1x128.ReducesTo [0, 1] S128
  h_S_ : 0 < S_.numel
  reducesTo_S2x1x1_S_d0_1_2 : S2x1x1.ReducesTo [0, 1, 2] S_
  bcast_S_S128 : S_.BroadcastsInDim S128 (![] : Fin 0 → Fin S128.rank)
  reducesTo_S128_S_d0 : S128.ReducesTo [0] S_
  dot_S1x25000_S25000x128_S1x128_1_0_0_1_n_n_wf : DotDims.WF S1x25000 S25000x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S25000x128.size a ≤ S200000x128.size a
  hwx0_0 : ∀ i : grid0.Coords, EltTy.bits .f32 = 32 ∨ (Rect.block (s := S200000x128) S25000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x25000.size a ≤ S8x1x25000.size a
  hwx0_1 : ∀ i : grid0.Coords, EltTy.bits .i32 = 32 ∨ (Rect.block (s := S8x1x25000) S1x1x25000.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S2x1x128.size a
  hwx0_2 : ∀ i : grid0.Coords, EltTy.bits .f32 = 32 ∨ (Rect.block (s := S2x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S2x1x1.size a
  hwx0_5 : ∀ i : grid0.Coords, EltTy.bits .f32 = 32 ∨ (Rect.block (s := S2x1x1) S1x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S2x1x1.size a
  hwx0_6 : ∀ i : grid0.Coords, EltTy.bits .f32 = 32 ∨ (Rect.block (s := S2x1x1) S1x1x1.size (cc0_transform_6 i) (hinb0_6 i)).WholeWords (EltTy.packing .f32)

variable [Facts₀]

def dot_S1x25000_S25000x128_S1x128_1_0_0_1_n_n : DotDims S1x25000 S25000x128 S1x128 where
  lhsContracting := [1]
  rhsContracting := [0]
  lhsNonContracting := [0]
  rhsNonContracting := [1]
  lhsBatch := []
  rhsBatch := []
  wf := dot_S1x25000_S25000x128_S1x128_1_0_0_1_n_n_wf

abbrev win0_0 : Pipeline.Window sig grid0 :=
  Pipeline.Window.ofSpec (Memref.whole main_arg0) S25000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x25000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x1x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_3) S1x1x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_4) S1x1x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun i => !(k0_cond2 i == 1#1) | 3 => fun i => !(k0_cond2 i == 1#1) | 4 => fun i => !(k0_cond2 i == 1#1) | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S200000x128 : Shape := ⟨2, ![200000, 128]⟩
abbrev S200000 : Shape := ⟨1, ![200000]⟩
abbrev S_ : Shape := ⟨0, ![]⟩
abbrev S200000x1 : Shape := ⟨2, ![200000, 1]⟩
abbrev S128 : Shape := ⟨1, ![128]⟩
abbrev S1x128 : Shape := ⟨2, ![1, 128]⟩

abbrev nBuf : Space → Nat
  | .hbm => 58
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S200000, .i32⟩
  | .hbm, ⟨2, _⟩ => ⟨S_, .i32⟩
  | .hbm, ⟨3, _⟩ => ⟨S200000, .i32⟩
  | .hbm, ⟨4, _⟩ => ⟨S200000, .i1⟩
  | .hbm, ⟨5, _⟩ => ⟨S200000, .f32⟩
  | .hbm, ⟨6, _⟩ => ⟨S200000x1, .f32⟩
  | .hbm, ⟨7, _⟩ => ⟨S_, .i32⟩
  | .hbm, ⟨8, _⟩ => ⟨S200000, .i32⟩
  | .hbm, ⟨9, _⟩ => ⟨S200000, .i1⟩
  | .hbm, ⟨10, _⟩ => ⟨S200000, .f32⟩
  | .hbm, ⟨11, _⟩ => ⟨S200000x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S200000x128, .f32⟩
  | .hbm, ⟨17, _⟩ => ⟨S200000x128, .f32⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S200000x128, .f32⟩
  | .hbm, ⟨23, _⟩ => ⟨S200000x128, .f32⟩
  | .hbm, ⟨24, _⟩ => ⟨S_, .f32⟩
  | .hbm, ⟨25, _⟩ => ⟨S128, .f32⟩
  | .hbm, ⟨26, _⟩ => ⟨S128, .f32⟩
  | .hbm, ⟨27, _⟩ => ⟨S128, .f32⟩
  | .hbm, ⟨28, _⟩ => ⟨S1x128, .f32⟩
  | .hbm, ⟨29, _⟩ => ⟨S200000x128, .f32⟩
  | .hbm, ⟨30, _⟩ => ⟨S200000x128, .f32⟩
  | .hbm, ⟨31, _⟩ => ⟨S200000x128, .f32⟩
  | .hbm, ⟨32, _⟩ => ⟨S200000x128, .f32⟩
  | .hbm, ⟨33, _⟩ => ⟨S200000x128, .f32⟩
  | .hbm, ⟨34, _⟩ => ⟨S_, .f32⟩
  | .hbm, ⟨35, _⟩ => ⟨S_, .f32⟩
  | .hbm, ⟨36, _⟩ => ⟨S1x128, .f32⟩
  | .hbm, ⟨37, _⟩ => ⟨S200000x128, .f32⟩
  | .hbm, ⟨38, _⟩ => ⟨S200000x128, .f32⟩
  | .hbm, ⟨39, _⟩ => ⟨S200000x128, .f32⟩
  | .hbm, ⟨40, _⟩ => ⟨S200000x128, .f32⟩
  | .hbm, ⟨41, _⟩ => ⟨S200000x128, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S1x128, .f32⟩
  | .hbm, ⟨51, _⟩ => ⟨S200000x128, .f32⟩
  | .hbm, ⟨52, _⟩ => ⟨S200000x128, .f32⟩
  | .hbm, ⟨53, _⟩ => ⟨S200000x128, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_cst_7 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_8 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  reducesTo_S200000x1_S_d0_1 : S200000x1.ReducesTo [0, 1] S_
  h_S_ : 0 < S_.numel
  bcast_S200000x1_S200000x128_0_1 : S200000x1.BroadcastsInDim S200000x128 (![0, 1] : Fin 2 → Fin S200000x128.rank)
  reducesTo_S200000x128_S128_d0 : S200000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  reducesTo_S200000x128_S_d0_1 : S200000x128.ReducesTo [0, 1] S_

variable [Facts₀]

class Facts : Prop extends Facts₀ where

variable [Facts]
-- ==== Proof.KChain.lean ====
/-
  The five running sums across the grid.

  The grid's eight points run in order; the points of one core are four consecutive ones.  At the first of the four
  the body clears five accumulators and adds the point's block statistics; at the others it adds to what the point
  before left; at the fourth it also copies the accumulators to the core's row of the five result arrays.  So after
  point n the accumulators hold the sums over the points of n's core up to n, and the result rows hold the sums over
  the core's four points.
-/
import proofs.«116562_j1151051235756_2_alg».proof.Proof.KernelIdealFrameP
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Chain

open Cert.KernelIdeal Cert.KernelIdeal.Gen Cert.KernelIdeal.GenP

variable {F : FTy → Type} [FloatOps F]

/-- The five accumulators: two rows of 128 and three single entries. -/
abbrev Acc (F : FTy → Type) [FloatOps F] : Type :=
  Vec F S1x128 .f32 × Vec F S1x128 .f32 × Vec F S1x1 .f32 × Vec F S1x1 .f32 × Vec F S1x1 .f32

/-- The cleared accumulators. -/
def init : Acc F := (k0_pay9, k0_pay10, k0_pay11, k0_pay12, k0_pay13)

/-- One point's update: the block `x0` and its labels `x1` added into the accumulators `s`. -/
def upd (x0 : Vec F S25000x128 .f32) (x1 : Vec F S1x1x25000 .i32) (s : Acc F) : Acc F :=
  (k0_pay17 x0 s.1, k0_pay18 x0 x1 s.2.1, k0_pay1 (k0_pay19 x0 s.2.2.1),
    k0_pay2 (k0_pay14 x0) (k0_pay15 x1) s.2.2.2.1, k0_pay3 (k0_pay15 x1) s.2.2.2.2)

/-- What the fourth point of a core copies out: each accumulator under one more leading unit axis. -/
def outs (s : Acc F) : Vec F S1x1x128 .f32 × Vec F S1x1x128 .f32 × Vec F S1x1x1 .f32 × Vec F S1x1x1 .f32 × Vec F S1x1x1 .f32 :=
  (k0_pay4 s.1, k0_pay5 s.2.1, k0_pay6 s.2.2.1, k0_pay7 s.2.2.2.1, k0_pay8 s.2.2.2.2)

theorem hz2 : (![0, 0] : Fin 2 → Nat) = fun _ => 0 := funext fun a => by fin_cases a <;> rfl
theorem hz3 : (![0, 0, 0] : Fin 3 → Nat) = fun _ => 0 := funext fun a => by fin_cases a <;> rfl

section pieces
variable (c : Dev nD) (i : grid0.Coords)
  (arg2 : Memref sig .tc .vmem S25000x128 .f32) (harg2 : arg2.IsWhole) (arg3 : Memref sig .tc .vmem S1x1x25000 .i32) (harg3 : arg3.IsWhole)
  (arg4 : Memref sig .tc .vmem S1x1x128 .f32) (harg4 : arg4.IsWhole) (arg5 : Memref sig .tc .vmem S1x1x128 .f32) (harg5 : arg5.IsWhole)
  (arg6 : Memref sig .tc .vmem S1x1x1 .f32) (harg6 : arg6.IsWhole) (arg7 : Memref sig .tc .vmem S1x1x1 .f32) (harg7 : arg7.IsWhole)
  (arg8 : Memref sig .tc .vmem S1x1x1 .f32) (harg8 : arg8.IsWhole) (arg9 : Memref sig .tc .vmem S1x128 .f32) (harg9 : arg9.IsWhole)
  (arg10 : Memref sig .tc .vmem S1x128 .f32) (harg10 : arg10.IsWhole) (arg11 : Memref sig .tc .vmem S1x1 .f32) (harg11 : arg11.IsWhole)
  (arg12 : Memref sig .tc .vmem S1x1 .f32) (harg12 : arg12.IsWhole) (arg13 : Memref sig .tc .vmem S1x1 .f32) (harg13 : arg13.IsWhole)

theorem pieceA0 (hc0 : cond0_0 i) (hc1 : ¬cond0_1 i) (x0 : Vec F S25000x128 .f32) (x1 : Vec F S1x1x25000 .i32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 = k0_pay17 x0 k0_pay9 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1)]
  unfold kernelRun0_A
  dsimp only
  sl_unfold_words
  simp only [View.canon_unit_zero (S := S1x128) hz2, View.canon_unit_zero (S := S1x1) hz2, View.canon_unit_zero (S := S1x1x128) hz3,
    View.canon_unit_zero (S := S1x1x1) hz3, View.canon_cons_unit_zero (S := S1x128) hz2, View.canon_cons_unit_zero (S := S1x1) hz2,
    View.readCov_unit_zero (S := S1x128) _ hz2, View.readCov_unit_zero (S := S1x1) _ hz2,
    View.readAt_eq_ld, harg2.read_unread, harg3.read_unread, harg9.read_unread, harg10.read_unread, harg11.read_unread,
    harg12.read_unread, harg13.read_unread, View.ld_unit_zero (S := S25000x128) hz2, View.ld_unit_zero (S := S1x1x25000) hz3,
    View.ld_unit_zero (S := S1x128) hz2, View.ld_unit_zero (S := S1x1) hz2]

theorem pieceA1 (hc0 : cond0_0 i) (hc1 : ¬cond0_1 i) (x0 : Vec F S25000x128 .f32) (x1 : Vec F S1x1x25000 .i32) :
    sout0_A_1 c i arg2 harg2 arg3 harg3 arg4 harg4 arg5 harg5 arg6 harg6 arg7 harg7 arg8 harg8 arg9 harg9 arg10 harg10 arg11 harg11 arg12 harg12 arg13 harg13 hc0 hc1 x0 x1 = k0_pay18 x0 x1 k0_pay10 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1)]
  unfold kernelRun0_A
  dsimp only
  sl_unfold_words
  simp only [View.canon_unit_zero (S := S1x128) hz2, View.canon_unit_zero (S := S1x1) hz2, View.canon_unit_zero (S := S1x1x128) hz3,
    View.canon_unit_zero (S := S1x1x1) hz3, View.canon_cons_unit_zero (S := S1x128) hz2, View.canon_cons_unit_zero (S := S1x1) hz2,
    View.readCov_unit_zero (S := S1x128) _ hz2, View.readCov_unit_zero (S := S1x1) _ hz2,
    View.readAt_eq_ld, harg2.read_unread, harg3.read_unread, harg9.read_unread, harg10.read_unread, harg11.read_unread,
    harg12.read_unread, harg13.read_unread, View.ld_unit_zero (S := S25000x128) hz2, View.ld_unit_zero (S := S1x1x25000) hz3,
    View.ld_unit_zero (S := S1x128) hz2, View.ld_unit_zero (S := S1x1) hz2]

theorem pieceA2 (hc0 : cond0_0 i) (hc1 : ¬cond0_1 i) (x0 : Vec F S25000x128 .f32) (x1 : Vec F S1x1x25000 .i32) :
    sout0_A_2 c i arg2 harg2 arg3 harg3 arg4 harg4 arg5 harg5 arg6 harg6 arg7 harg7 arg8 harg8 arg9 harg9 arg10 harg10 arg11 harg11 arg12 harg12 arg13 harg13 hc0 hc1 x0 x1 = k0_pay1 (k0_pay19 x0 k0_pay11) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 hc0 hc1 x0 x1)]
  unfold kernelRun0_A
  dsimp only
  sl_unfold_words
  simp only [View.canon_unit_zero (S := S1x128) hz2, View.canon_unit_zero (S := S1x1) hz2, View.canon_unit_zero (S := S1x1x128) hz3,
    View.canon_unit_zero (S := S1x1x1) hz3, View.canon_cons_unit_zero (S := S1x128) hz2, View.canon_cons_unit_zero (S := S1x1) hz2,
    View.readCov_unit_zero (S := S1x128) _ hz2, View.readCov_unit_zero (S := S1x1) _ hz2,
    View.readAt_eq_ld, harg2.read_unread, harg3.read_unread, harg9.read_unread, harg10.read_unread, harg11.read_unread,
    harg12.read_unread, harg13.read_unread, View.ld_unit_zero (S := S25000x128) hz2, View.ld_unit_zero (S := S1x1x25000) hz3,
    View.ld_unit_zero (S := S1x128) hz2, View.ld_unit_zero (S := S1x1) hz2]

theorem pieceA3 (hc0 : cond0_0 i) (hc1 : ¬cond0_1 i) (x0 : Vec F S25000x128 .f32) (x1 : Vec F S1x1x25000 .i32) :
    sout0_A_3 c i arg2 harg2 arg3 harg3 arg4 harg4 arg5 harg5 arg6 harg6 arg7 harg7 arg8 harg8 arg9 harg9 arg10 harg10 arg11 harg11 arg12 harg12 arg13 harg13 hc0 hc1 x0 x1 = k0_pay2 (k0_pay14 x0) (k0_pay15 x1) k0_pay12 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 hc0 hc1 x0 x1)]
  unfold kernelRun0_A
  dsimp only
  sl_unfold_words
  simp only [View.canon_unit_zero (S := S1x128) hz2, View.canon_unit_zero (S := S1x1) hz2, View.canon_unit_zero (S := S1x1x128) hz3,
    View.canon_unit_zero (S := S1x1x1) hz3, View.canon_cons_unit_zero (S := S1x128) hz2, View.canon_cons_unit_zero (S := S1x1) hz2,
    View.readCov_unit_zero (S := S1x128) _ hz2, View.readCov_unit_zero (S := S1x1) _ hz2,
    View.readAt_eq_ld, harg2.read_unread, harg3.read_unread, harg9.read_unread, harg10.read_unread, harg11.read_unread,
    harg12.read_unread, harg13.read_unread, View.ld_unit_zero (S := S25000x128) hz2, View.ld_unit_zero (S := S1x1x25000) hz3,
    View.ld_unit_zero (S := S1x128) hz2, View.ld_unit_zero (S := S1x1) hz2]

theorem pieceA4 (hc0 : cond0_0 i) (hc1 : ¬cond0_1 i) (x0 : Vec F S25000x128 .f32) (x1 : Vec F S1x1x25000 .i32) :
    sout0_A_4 c i arg2 harg2 arg3 harg3 arg4 harg4 arg5 harg5 arg6 harg6 arg7 harg7 arg8 harg8 arg9 harg9 arg10 harg10 arg11 harg11 arg12 harg12 arg13 harg13 hc0 hc1 x0 x1 = k0_pay3 (k0_pay15 x1) k0_pay13 := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 arg13 harg13 hc0 hc1 x0 x1)]
  unfold kernelRun0_A
  dsimp only
  sl_unfold_words
  simp only [View.canon_unit_zero (S := S1x128) hz2, View.canon_unit_zero (S := S1x1) hz2, View.canon_unit_zero (S := S1x1x128) hz3,
    View.canon_unit_zero (S := S1x1x1) hz3, View.canon_cons_unit_zero (S := S1x128) hz2, View.canon_cons_unit_zero (S := S1x1) hz2,
    View.readCov_unit_zero (S := S1x128) _ hz2, View.readCov_unit_zero (S := S1x1) _ hz2,
    View.readAt_eq_ld, harg2.read_unread, harg3.read_unread, harg9.read_unread, harg10.read_unread, harg11.read_unread,
    harg12.read_unread, harg13.read_unread, View.ld_unit_zero (S := S25000x128) hz2, View.ld_unit_zero (S := S1x1x25000) hz3,
    View.ld_unit_zero (S := S1x128) hz2, View.ld_unit_zero (S := S1x1) hz2]

theorem pieceB0 (hc0 : ¬cond0_0 i) (hc1 : ¬cond0_1 i) (x0 : Vec F S25000x128 .f32) (x1 : Vec F S1x1x25000 .i32)
    (xs0 xs1 : Vec F S1x128 .f32) (xs2 xs3 xs4 : Vec F S1x1 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4 = k0_pay17 x0 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4)]
  unfold kernelRun0_B
  dsimp only
  sl_unfold_words
  simp only [View.canon_unit_zero (S := S1x128) hz2, View.canon_unit_zero (S := S1x1) hz2, View.canon_unit_zero (S := S1x1x128) hz3,
    View.canon_unit_zero (S := S1x1x1) hz3, View.canon_cons_unit_zero (S := S1x128) hz2, View.canon_cons_unit_zero (S := S1x1) hz2,
    View.readCov_unit_zero (S := S1x128) _ hz2, View.readCov_unit_zero (S := S1x1) _ hz2,
    View.readAt_eq_ld, harg2.read_unread, harg3.read_unread, harg9.read_unread, harg10.read_unread, harg11.read_unread,
    harg12.read_unread, harg13.read_unread, View.ld_unit_zero (S := S25000x128) hz2, View.ld_unit_zero (S := S1x1x25000) hz3,
    View.ld_unit_zero (S := S1x128) hz2, View.ld_unit_zero (S := S1x1) hz2]

theorem pieceB1 (hc0 : ¬cond0_0 i) (hc1 : ¬cond0_1 i) (x0 : Vec F S25000x128 .f32) (x1 : Vec F S1x1x25000 .i32)
    (xs0 xs1 : Vec F S1x128 .f32) (xs2 xs3 xs4 : Vec F S1x1 .f32) :
    sout0_B_1 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4 = k0_pay18 x0 x1 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4)]
  unfold kernelRun0_B
  dsimp only
  sl_unfold_words
  simp only [View.canon_unit_zero (S := S1x128) hz2, View.canon_unit_zero (S := S1x1) hz2, View.canon_unit_zero (S := S1x1x128) hz3,
    View.canon_unit_zero (S := S1x1x1) hz3, View.canon_cons_unit_zero (S := S1x128) hz2, View.canon_cons_unit_zero (S := S1x1) hz2,
    View.readCov_unit_zero (S := S1x128) _ hz2, View.readCov_unit_zero (S := S1x1) _ hz2,
    View.readAt_eq_ld, harg2.read_unread, harg3.read_unread, harg9.read_unread, harg10.read_unread, harg11.read_unread,
    harg12.read_unread, harg13.read_unread, View.ld_unit_zero (S := S25000x128) hz2, View.ld_unit_zero (S := S1x1x25000) hz3,
    View.ld_unit_zero (S := S1x128) hz2, View.ld_unit_zero (S := S1x1) hz2]

theorem pieceB2 (hc0 : ¬cond0_0 i) (hc1 : ¬cond0_1 i) (x0 : Vec F S25000x128 .f32) (x1 : Vec F S1x1x25000 .i32)
    (xs0 xs1 : Vec F S1x128 .f32) (xs2 xs3 xs4 : Vec F S1x1 .f32) :
    sout0_B_2 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4 = k0_pay1 (k0_pay19 x0 xs2) := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4)]
  unfold kernelRun0_B
  dsimp only
  sl_unfold_words
  simp only [View.canon_unit_zero (S := S1x128) hz2, View.canon_unit_zero (S := S1x1) hz2, View.canon_unit_zero (S := S1x1x128) hz3,
    View.canon_unit_zero (S := S1x1x1) hz3, View.canon_cons_unit_zero (S := S1x128) hz2, View.canon_cons_unit_zero (S := S1x1) hz2,
    View.readCov_unit_zero (S := S1x128) _ hz2, View.readCov_unit_zero (S := S1x1) _ hz2,
    View.readAt_eq_ld, harg2.read_unread, harg3.read_unread, harg9.read_unread, harg10.read_unread, harg11.read_unread,
    harg12.read_unread, harg13.read_unread, View.ld_unit_zero (S := S25000x128) hz2, View.ld_unit_zero (S := S1x1x25000) hz3,
    View.ld_unit_zero (S := S1x128) hz2, View.ld_unit_zero (S := S1x1) hz2]

theorem pieceB3 (hc0 : ¬cond0_0 i) (hc1 : ¬cond0_1 i) (x0 : Vec F S25000x128 .f32) (x1 : Vec F S1x1x25000 .i32)
    (xs0 xs1 : Vec F S1x128 .f32) (xs2 xs3 xs4 : Vec F S1x1 .f32) :
    sout0_B_3 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4 = k0_pay2 (k0_pay14 x0) (k0_pay15 x1) xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4)]
  unfold kernelRun0_B
  dsimp only
  sl_unfold_words
  simp only [View.canon_unit_zero (S := S1x128) hz2, View.canon_unit_zero (S := S1x1) hz2, View.canon_unit_zero (S := S1x1x128) hz3,
    View.canon_unit_zero (S := S1x1x1) hz3, View.canon_cons_unit_zero (S := S1x128) hz2, View.canon_cons_unit_zero (S := S1x1) hz2,
    View.readCov_unit_zero (S := S1x128) _ hz2, View.readCov_unit_zero (S := S1x1) _ hz2,
    View.readAt_eq_ld, harg2.read_unread, harg3.read_unread, harg9.read_unread, harg10.read_unread, harg11.read_unread,
    harg12.read_unread, harg13.read_unread, View.ld_unit_zero (S := S25000x128) hz2, View.ld_unit_zero (S := S1x1x25000) hz3,
    View.ld_unit_zero (S := S1x128) hz2, View.ld_unit_zero (S := S1x1) hz2]

theorem pieceB4 (hc0 : ¬cond0_0 i) (hc1 : ¬cond0_1 i) (x0 : Vec F S25000x128 .f32) (x1 : Vec F S1x1x25000 .i32)
    (xs0 xs1 : Vec F S1x128 .f32) (xs2 xs3 xs4 : Vec F S1x1 .f32) :
    sout0_B_4 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4 = k0_pay3 (k0_pay15 x1) xs4 := by
  unfold sout0_B_4
  rw [View.read_writes_eq_canon _ _ _ (scover0_B_4 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4)]
  unfold kernelRun0_B
  dsimp only
  sl_unfold_words
  simp only [View.canon_unit_zero (S := S1x128) hz2, View.canon_unit_zero (S := S1x1) hz2, View.canon_unit_zero (S := S1x1x128) hz3,
    View.canon_unit_zero (S := S1x1x1) hz3, View.canon_cons_unit_zero (S := S1x128) hz2, View.canon_cons_unit_zero (S := S1x1) hz2,
    View.readCov_unit_zero (S := S1x128) _ hz2, View.readCov_unit_zero (S := S1x1) _ hz2,
    View.readAt_eq_ld, harg2.read_unread, harg3.read_unread, harg9.read_unread, harg10.read_unread, harg11.read_unread,
    harg12.read_unread, harg13.read_unread, View.ld_unit_zero (S := S25000x128) hz2, View.ld_unit_zero (S := S1x1x25000) hz3,
    View.ld_unit_zero (S := S1x128) hz2, View.ld_unit_zero (S := S1x1) hz2]

theorem pieceC0 (hc0 : ¬cond0_0 i) (hc1 : cond0_1 i) (x0 : Vec F S25000x128 .f32) (x1 : Vec F S1x1x25000 .i32)
    (xs0 xs1 : Vec F S1x128 .f32) (xs2 xs3 xs4 : Vec F S1x1 .f32) :
    sout0_C_0 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4 = k0_pay17 x0 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4)]
  unfold kernelRun0_C
  dsimp only
  sl_unfold_words
  simp only [View.canon_unit_zero (S := S1x128) hz2, View.canon_unit_zero (S := S1x1) hz2, View.canon_unit_zero (S := S1x1x128) hz3,
    View.canon_unit_zero (S := S1x1x1) hz3, View.canon_cons_unit_zero (S := S1x128) hz2, View.canon_cons_unit_zero (S := S1x1) hz2,
    View.readCov_unit_zero (S := S1x128) _ hz2, View.readCov_unit_zero (S := S1x1) _ hz2,
    View.readAt_eq_ld, harg2.read_unread, harg3.read_unread, harg9.read_unread, harg10.read_unread, harg11.read_unread,
    harg12.read_unread, harg13.read_unread, View.ld_unit_zero (S := S25000x128) hz2, View.ld_unit_zero (S := S1x1x25000) hz3,
    View.ld_unit_zero (S := S1x128) hz2, View.ld_unit_zero (S := S1x1) hz2]

theorem pieceC1 (hc0 : ¬cond0_0 i) (hc1 : cond0_1 i) (x0 : Vec F S25000x128 .f32) (x1 : Vec F S1x1x25000 .i32)
    (xs0 xs1 : Vec F S1x128 .f32) (xs2 xs3 xs4 : Vec F S1x1 .f32) :
    sout0_C_1 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4 = k0_pay18 x0 x1 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4)]
  unfold kernelRun0_C
  dsimp only
  sl_unfold_words
  simp only [View.canon_unit_zero (S := S1x128) hz2, View.canon_unit_zero (S := S1x1) hz2, View.canon_unit_zero (S := S1x1x128) hz3,
    View.canon_unit_zero (S := S1x1x1) hz3, View.canon_cons_unit_zero (S := S1x128) hz2, View.canon_cons_unit_zero (S := S1x1) hz2,
    View.readCov_unit_zero (S := S1x128) _ hz2, View.readCov_unit_zero (S := S1x1) _ hz2,
    View.readAt_eq_ld, harg2.read_unread, harg3.read_unread, harg9.read_unread, harg10.read_unread, harg11.read_unread,
    harg12.read_unread, harg13.read_unread, View.ld_unit_zero (S := S25000x128) hz2, View.ld_unit_zero (S := S1x1x25000) hz3,
    View.ld_unit_zero (S := S1x128) hz2, View.ld_unit_zero (S := S1x1) hz2]

theorem pieceC2 (hc0 : ¬cond0_0 i) (hc1 : cond0_1 i) (x0 : Vec F S25000x128 .f32) (x1 : Vec F S1x1x25000 .i32)
    (xs0 xs1 : Vec F S1x128 .f32) (xs2 xs3 xs4 : Vec F S1x1 .f32) :
    sout0_C_2 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4 = k0_pay1 (k0_pay19 x0 xs2) := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4)]
  unfold kernelRun0_C
  dsimp only
  sl_unfold_words
  simp only [View.canon_unit_zero (S := S1x128) hz2, View.canon_unit_zero (S := S1x1) hz2, View.canon_unit_zero (S := S1x1x128) hz3,
    View.canon_unit_zero (S := S1x1x1) hz3, View.canon_cons_unit_zero (S := S1x128) hz2, View.canon_cons_unit_zero (S := S1x1) hz2,
    View.readCov_unit_zero (S := S1x128) _ hz2, View.readCov_unit_zero (S := S1x1) _ hz2,
    View.readAt_eq_ld, harg2.read_unread, harg3.read_unread, harg9.read_unread, harg10.read_unread, harg11.read_unread,
    harg12.read_unread, harg13.read_unread, View.ld_unit_zero (S := S25000x128) hz2, View.ld_unit_zero (S := S1x1x25000) hz3,
    View.ld_unit_zero (S := S1x128) hz2, View.ld_unit_zero (S := S1x1) hz2]

theorem pieceC3 (hc0 : ¬cond0_0 i) (hc1 : cond0_1 i) (x0 : Vec F S25000x128 .f32) (x1 : Vec F S1x1x25000 .i32)
    (xs0 xs1 : Vec F S1x128 .f32) (xs2 xs3 xs4 : Vec F S1x1 .f32) :
    sout0_C_3 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4 = k0_pay2 (k0_pay14 x0) (k0_pay15 x1) xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4)]
  unfold kernelRun0_C
  dsimp only
  sl_unfold_words
  simp only [View.canon_unit_zero (S := S1x128) hz2, View.canon_unit_zero (S := S1x1) hz2, View.canon_unit_zero (S := S1x1x128) hz3,
    View.canon_unit_zero (S := S1x1x1) hz3, View.canon_cons_unit_zero (S := S1x128) hz2, View.canon_cons_unit_zero (S := S1x1) hz2,
    View.readCov_unit_zero (S := S1x128) _ hz2, View.readCov_unit_zero (S := S1x1) _ hz2,
    View.readAt_eq_ld, harg2.read_unread, harg3.read_unread, harg9.read_unread, harg10.read_unread, harg11.read_unread,
    harg12.read_unread, harg13.read_unread, View.ld_unit_zero (S := S25000x128) hz2, View.ld_unit_zero (S := S1x1x25000) hz3,
    View.ld_unit_zero (S := S1x128) hz2, View.ld_unit_zero (S := S1x1) hz2]

theorem pieceC4 (hc0 : ¬cond0_0 i) (hc1 : cond0_1 i) (x0 : Vec F S25000x128 .f32) (x1 : Vec F S1x1x25000 .i32)
    (xs0 xs1 : Vec F S1x128 .f32) (xs2 xs3 xs4 : Vec F S1x1 .f32) :
    sout0_C_4 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4 = k0_pay3 (k0_pay15 x1) xs4 := by
  unfold sout0_C_4
  rw [View.read_writes_eq_canon _ _ _ (scover0_C_4 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4)]
  unfold kernelRun0_C
  dsimp only
  sl_unfold_words
  simp only [View.canon_unit_zero (S := S1x128) hz2, View.canon_unit_zero (S := S1x1) hz2, View.canon_unit_zero (S := S1x1x128) hz3,
    View.canon_unit_zero (S := S1x1x1) hz3, View.canon_cons_unit_zero (S := S1x128) hz2, View.canon_cons_unit_zero (S := S1x1) hz2,
    View.readCov_unit_zero (S := S1x128) _ hz2, View.readCov_unit_zero (S := S1x1) _ hz2,
    View.readAt_eq_ld, harg2.read_unread, harg3.read_unread, harg9.read_unread, harg10.read_unread, harg11.read_unread,
    harg12.read_unread, harg13.read_unread, View.ld_unit_zero (S := S25000x128) hz2, View.ld_unit_zero (S := S1x1x25000) hz3,
    View.ld_unit_zero (S := S1x128) hz2, View.ld_unit_zero (S := S1x1) hz2]

theorem pieceO0 (hc0 : ¬cond0_0 i) (hc1 : cond0_1 i) (x0 : Vec F S25000x128 .f32) (x1 : Vec F S1x1x25000 .i32)
    (xs0 xs1 : Vec F S1x128 .f32) (xs2 xs3 xs4 : Vec F S1x1 .f32) :
    out0_C_2 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4 = k0_pay4 (k0_pay17 x0 xs0) := by
  unfold out0_C_2
  rw [View.read_writes_eq_canon _ _ _ (cover0_C_2 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4)]
  unfold kernelRun0_C
  dsimp only
  sl_unfold_words
  simp only [View.canon_unit_zero (S := S1x128) hz2, View.canon_unit_zero (S := S1x1) hz2, View.canon_unit_zero (S := S1x1x128) hz3,
    View.canon_unit_zero (S := S1x1x1) hz3, View.canon_cons_unit_zero (S := S1x128) hz2, View.canon_cons_unit_zero (S := S1x1) hz2,
    View.readCov_unit_zero (S := S1x128) _ hz2, View.readCov_unit_zero (S := S1x1) _ hz2,
    View.readAt_eq_ld, harg2.read_unread, harg3.read_unread, harg9.read_unread, harg10.read_unread, harg11.read_unread,
    harg12.read_unread, harg13.read_unread, View.ld_unit_zero (S := S25000x128) hz2, View.ld_unit_zero (S := S1x1x25000) hz3,
    View.ld_unit_zero (S := S1x128) hz2, View.ld_unit_zero (S := S1x1) hz2]

theorem pieceO1 (hc0 : ¬cond0_0 i) (hc1 : cond0_1 i) (x0 : Vec F S25000x128 .f32) (x1 : Vec F S1x1x25000 .i32)
    (xs0 xs1 : Vec F S1x128 .f32) (xs2 xs3 xs4 : Vec F S1x1 .f32) :
    out0_C_3 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4 = k0_pay5 (k0_pay18 x0 x1 xs1) := by
  unfold out0_C_3
  rw [View.read_writes_eq_canon _ _ _ (cover0_C_3 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4)]
  unfold kernelRun0_C
  dsimp only
  sl_unfold_words
  simp only [View.canon_unit_zero (S := S1x128) hz2, View.canon_unit_zero (S := S1x1) hz2, View.canon_unit_zero (S := S1x1x128) hz3,
    View.canon_unit_zero (S := S1x1x1) hz3, View.canon_cons_unit_zero (S := S1x128) hz2, View.canon_cons_unit_zero (S := S1x1) hz2,
    View.readCov_unit_zero (S := S1x128) _ hz2, View.readCov_unit_zero (S := S1x1) _ hz2,
    View.readAt_eq_ld, harg2.read_unread, harg3.read_unread, harg9.read_unread, harg10.read_unread, harg11.read_unread,
    harg12.read_unread, harg13.read_unread, View.ld_unit_zero (S := S25000x128) hz2, View.ld_unit_zero (S := S1x1x25000) hz3,
    View.ld_unit_zero (S := S1x128) hz2, View.ld_unit_zero (S := S1x1) hz2]

theorem pieceO2 (hc0 : ¬cond0_0 i) (hc1 : cond0_1 i) (x0 : Vec F S25000x128 .f32) (x1 : Vec F S1x1x25000 .i32)
    (xs0 xs1 : Vec F S1x128 .f32) (xs2 xs3 xs4 : Vec F S1x1 .f32) :
    out0_C_4 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4 = k0_pay6 (k0_pay1 (k0_pay19 x0 xs2)) := by
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4)]
  unfold kernelRun0_C
  dsimp only
  sl_unfold_words
  simp only [View.canon_unit_zero (S := S1x128) hz2, View.canon_unit_zero (S := S1x1) hz2, View.canon_unit_zero (S := S1x1x128) hz3,
    View.canon_unit_zero (S := S1x1x1) hz3, View.canon_cons_unit_zero (S := S1x128) hz2, View.canon_cons_unit_zero (S := S1x1) hz2,
    View.readCov_unit_zero (S := S1x128) _ hz2, View.readCov_unit_zero (S := S1x1) _ hz2,
    View.readAt_eq_ld, harg2.read_unread, harg3.read_unread, harg9.read_unread, harg10.read_unread, harg11.read_unread,
    harg12.read_unread, harg13.read_unread, View.ld_unit_zero (S := S25000x128) hz2, View.ld_unit_zero (S := S1x1x25000) hz3,
    View.ld_unit_zero (S := S1x128) hz2, View.ld_unit_zero (S := S1x1) hz2]

theorem pieceO3 (hc0 : ¬cond0_0 i) (hc1 : cond0_1 i) (x0 : Vec F S25000x128 .f32) (x1 : Vec F S1x1x25000 .i32)
    (xs0 xs1 : Vec F S1x128 .f32) (xs2 xs3 xs4 : Vec F S1x1 .f32) :
    out0_C_5 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4 = k0_pay7 (k0_pay2 (k0_pay14 x0) (k0_pay15 x1) xs3) := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4)]
  unfold kernelRun0_C
  dsimp only
  sl_unfold_words
  simp only [View.canon_unit_zero (S := S1x128) hz2, View.canon_unit_zero (S := S1x1) hz2, View.canon_unit_zero (S := S1x1x128) hz3,
    View.canon_unit_zero (S := S1x1x1) hz3, View.canon_cons_unit_zero (S := S1x128) hz2, View.canon_cons_unit_zero (S := S1x1) hz2,
    View.readCov_unit_zero (S := S1x128) _ hz2, View.readCov_unit_zero (S := S1x1) _ hz2,
    View.readAt_eq_ld, harg2.read_unread, harg3.read_unread, harg9.read_unread, harg10.read_unread, harg11.read_unread,
    harg12.read_unread, harg13.read_unread, View.ld_unit_zero (S := S25000x128) hz2, View.ld_unit_zero (S := S1x1x25000) hz3,
    View.ld_unit_zero (S := S1x128) hz2, View.ld_unit_zero (S := S1x1) hz2]

theorem pieceO4 (hc0 : ¬cond0_0 i) (hc1 : cond0_1 i) (x0 : Vec F S25000x128 .f32) (x1 : Vec F S1x1x25000 .i32)
    (xs0 xs1 : Vec F S1x128 .f32) (xs2 xs3 xs4 : Vec F S1x1 .f32) :
    out0_C_6 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4 = k0_pay8 (k0_pay3 (k0_pay15 x1) xs4) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4)]
  unfold kernelRun0_C
  dsimp only
  sl_unfold_words
  simp only [View.canon_unit_zero (S := S1x128) hz2, View.canon_unit_zero (S := S1x1) hz2, View.canon_unit_zero (S := S1x1x128) hz3,
    View.canon_unit_zero (S := S1x1x1) hz3, View.canon_cons_unit_zero (S := S1x128) hz2, View.canon_cons_unit_zero (S := S1x1) hz2,
    View.readCov_unit_zero (S := S1x128) _ hz2, View.readCov_unit_zero (S := S1x1) _ hz2,
    View.readAt_eq_ld, harg2.read_unread, harg3.read_unread, harg9.read_unread, harg10.read_unread, harg11.read_unread,
    harg12.read_unread, harg13.read_unread, View.ld_unit_zero (S := S25000x128) hz2, View.ld_unit_zero (S := S1x1x25000) hz3,
    View.ld_unit_zero (S := S1x128) hz2, View.ld_unit_zero (S := S1x1) hz2]

/-- A core's first point: the accumulators cleared, then updated. -/
theorem caseA (hc0 : cond0_0 i) (hc1 : ¬cond0_1 i) (x0 : Vec F S25000x128 .f32) (x1 : Vec F S1x1x25000 .i32) :
    (sout0_A_0 c i arg2 harg2 arg3 harg3 arg4 harg4 arg5 harg5 arg6 harg6 arg7 harg7 arg8 harg8 arg9 harg9 arg10 harg10 arg11 harg11 arg12 harg12 arg13 harg13 hc0 hc1 x0 x1,
      sout0_A_1 c i arg2 harg2 arg3 harg3 arg4 harg4 arg5 harg5 arg6 harg6 arg7 harg7 arg8 harg8 arg9 harg9 arg10 harg10 arg11 harg11 arg12 harg12 arg13 harg13 hc0 hc1 x0 x1,
      sout0_A_2 c i arg2 harg2 arg3 harg3 arg4 harg4 arg5 harg5 arg6 harg6 arg7 harg7 arg8 harg8 arg9 harg9 arg10 harg10 arg11 harg11 arg12 harg12 arg13 harg13 hc0 hc1 x0 x1,
      sout0_A_3 c i arg2 harg2 arg3 harg3 arg4 harg4 arg5 harg5 arg6 harg6 arg7 harg7 arg8 harg8 arg9 harg9 arg10 harg10 arg11 harg11 arg12 harg12 arg13 harg13 hc0 hc1 x0 x1,
      sout0_A_4 c i arg2 harg2 arg3 harg3 arg4 harg4 arg5 harg5 arg6 harg6 arg7 harg7 arg8 harg8 arg9 harg9 arg10 harg10 arg11 harg11 arg12 harg12 arg13 harg13 hc0 hc1 x0 x1) = upd x0 x1 init := by
  rw [pieceA0, pieceA1, pieceA2, pieceA3, pieceA4]
  rfl

/-- A middle point: the accumulators the point before left, updated. -/
theorem caseB (hc0 : ¬cond0_0 i) (hc1 : ¬cond0_1 i) (x0 : Vec F S25000x128 .f32) (x1 : Vec F S1x1x25000 .i32)
    (xs0 xs1 : Vec F S1x128 .f32) (xs2 xs3 xs4 : Vec F S1x1 .f32) :
    (sout0_B_0 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4,
      sout0_B_1 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4,
      sout0_B_2 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4,
      sout0_B_3 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4,
      sout0_B_4 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4) = upd x0 x1 (xs0, xs1, xs2, xs3, xs4) := by
  rw [pieceB0, pieceB1, pieceB2, pieceB3, pieceB4]
  rfl

/-- A core's fourth point: the same update, -/
theorem caseC (hc0 : ¬cond0_0 i) (hc1 : cond0_1 i) (x0 : Vec F S25000x128 .f32) (x1 : Vec F S1x1x25000 .i32)
    (xs0 xs1 : Vec F S1x128 .f32) (xs2 xs3 xs4 : Vec F S1x1 .f32) :
    (sout0_C_0 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4,
      sout0_C_1 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4,
      sout0_C_2 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4,
      sout0_C_3 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4,
      sout0_C_4 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4) = upd x0 x1 (xs0, xs1, xs2, xs3, xs4) := by
  rw [pieceC0, pieceC1, pieceC2, pieceC3, pieceC4]
  rfl

/-- and the updated accumulators copied to the five output buffers. -/
theorem outC (hc0 : ¬cond0_0 i) (hc1 : cond0_1 i) (x0 : Vec F S25000x128 .f32) (x1 : Vec F S1x1x25000 .i32)
    (xs0 xs1 : Vec F S1x128 .f32) (xs2 xs3 xs4 : Vec F S1x1 .f32) :
    (out0_C_2 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4,
      out0_C_3 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4,
      out0_C_4 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4,
      out0_C_5 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4,
      out0_C_6 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4) = outs (upd x0 x1 (xs0, xs1, xs2, xs3, xs4)) := by
  rw [pieceO0, pieceO1, pieceO2, pieceO3, pieceO4]
  rfl

end pieces

variable (m : (ℓ : Loc nD τ sig) → Buf (Elt F) ℓ)

/-- The accumulators after point `n`: cleared and updated at a core's first point, updated from the point before at the others. -/
def sc (c : Dev nD) : (n : ℕ) → n < cfg0.N → Acc F
  | 0, h => upd (iblk m c 0 ⟨0, h⟩) (iblk m c 1 ⟨0, h⟩) init
  | n + 1, h =>
    if (n + 1) % 4 = 0 then upd (iblk m c 0 ⟨n + 1, h⟩) (iblk m c 1 ⟨n + 1, h⟩) init
    else upd (iblk m c 0 ⟨n + 1, h⟩) (iblk m c 1 ⟨n + 1, h⟩) (sc c n (Nat.lt_of_succ_lt h))

theorem sc_start (c : Dev nD) (n : ℕ) (h : n < cfg0.N) (h0 : n % 4 = 0) :
    sc m c n h = upd (iblk m c 0 ⟨n, h⟩) (iblk m c 1 ⟨n, h⟩) init := by
  cases n with
  | zero => rfl
  | succ n => exact if_pos h0

theorem sc_step (c : Dev nD) (n : ℕ) (h : n + 1 < cfg0.N) (h0 : ¬(n + 1) % 4 = 0) :
    sc m c (n + 1) h = upd (iblk m c 0 ⟨n + 1, h⟩) (iblk m c 1 ⟨n + 1, h⟩) (sc m c n (Nat.lt_of_succ_lt h)) :=
  if_neg h0

/-- The carried accumulators the frame run records after point `n` are `sc`. -/
theorem scratch_eq (c : Dev nD) : ∀ (n : ℕ) (h : n < cfg0.N), (outsAt0 m c n h).2.2.2.2.2 = sc m c n h
  | 0, h => by
    rw [outsAt0_A m c ⟨0, h⟩ (Nat.zero_mod _) (by show ¬(0 : ℕ) % 4 = 3; decide)]
    exact caseA c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) scM0_0 (Memref.isWhole_whole _) scM0_1 (Memref.isWhole_whole _) scM0_2 (Memref.isWhole_whole _) scM0_3 (Memref.isWhole_whole _) scM0_4 (Memref.isWhole_whole _) _ _ (iblk m c 0 ⟨0, h⟩) (iblk m c 1 ⟨0, h⟩)
  | n + 1, h => by
    by_cases h0 : (n + 1) % 4 = 0
    · have h1 : ¬(n + 1) % 4 = 3 := by omega
      rw [outsAt0_A m c ⟨n + 1, h⟩ h0 h1, sc_start m c (n + 1) h h0]
      exact caseA c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) scM0_1 (Memref.isWhole_whole _) scM0_2 (Memref.isWhole_whole _) scM0_3 (Memref.isWhole_whole _) scM0_4 (Memref.isWhole_whole _) _ _ (iblk m c 0 ⟨n + 1, h⟩) (iblk m c 1 ⟨n + 1, h⟩)
    · have ih := scratch_eq c n (Nat.lt_of_succ_lt h)
      by_cases h1 : (n + 1) % 4 = 3
      · rw [outsAt0_C m c ⟨n + 1, h⟩ h0 h1, sc_step m c n h h0, ← ih]
        exact caseC c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) scM0_1 (Memref.isWhole_whole _) scM0_2 (Memref.isWhole_whole _) scM0_3 (Memref.isWhole_whole _) scM0_4 (Memref.isWhole_whole _) _ _ (iblk m c 0 ⟨n + 1, h⟩) (iblk m c 1 ⟨n + 1, h⟩) _ _ _ _ _
      · rw [outsAt0_B m c ⟨n + 1, h⟩ h0 h1, sc_step m c n h h0, ← ih]
        exact caseB c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) scM0_1 (Memref.isWhole_whole _) scM0_2 (Memref.isWhole_whole _) scM0_3 (Memref.isWhole_whole _) scM0_4 (Memref.isWhole_whole _) _ _ (iblk m c 0 ⟨n + 1, h⟩) (iblk m c 1 ⟨n + 1, h⟩) _ _ _ _ _

/-- At a core's fourth point the five output buffers hold the accumulators just updated. -/
theorem outs_all (c : Dev nD) (t : Fin cfg0.N) (h3 : t.val % 4 = 3) :
    ((outsAt0 m c t.val t.isLt).1, (outsAt0 m c t.val t.isLt).2.1, (outsAt0 m c t.val t.isLt).2.2.1,
      (outsAt0 m c t.val t.isLt).2.2.2.1, (outsAt0 m c t.val t.isLt).2.2.2.2.1) = outs (sc m c t.val t.isLt) := by
  obtain ⟨n, h⟩ := t
  cases n with
  | zero => exact absurd h3 (by show ¬(0 : ℕ) % 4 = 3; decide)
  | succ n =>
    have h0 : ¬(n + 1) % 4 = 0 := by dsimp only at h3; omega
    have ih := scratch_eq m c n (Nat.lt_of_succ_lt h)
    rw [outsAt0_C m c ⟨n + 1, h⟩ h0 h3]
    dsimp only
    rw [sc_step m c n h h0, ← ih]
    exact outC c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) scM0_1 (Memref.isWhole_whole _) scM0_2 (Memref.isWhole_whole _) scM0_3 (Memref.isWhole_whole _) scM0_4 (Memref.isWhole_whole _) _ _ (iblk m c 0 ⟨n + 1, h⟩) (iblk m c 1 ⟨n + 1, h⟩) _ _ _ _ _

theorem out2_eq (c : Dev nD) (t : Fin cfg0.N) (h3 : t.val % 4 = 3) : (outsAt0 m c t.val t.isLt).1 = k0_pay4 (sc m c t.val t.isLt).1 :=
  congrArg (fun p => p.1) (outs_all m c t h3)
theorem out3_eq (c : Dev nD) (t : Fin cfg0.N) (h3 : t.val % 4 = 3) : (outsAt0 m c t.val t.isLt).2.1 = k0_pay5 (sc m c t.val t.isLt).2.1 :=
  congrArg (fun p => p.2.1) (outs_all m c t h3)
theorem out4_eq (c : Dev nD) (t : Fin cfg0.N) (h3 : t.val % 4 = 3) : (outsAt0 m c t.val t.isLt).2.2.1 = k0_pay6 (sc m c t.val t.isLt).2.2.1 :=
  congrArg (fun p => p.2.2.1) (outs_all m c t h3)
theorem out5_eq (c : Dev nD) (t : Fin cfg0.N) (h3 : t.val % 4 = 3) : (outsAt0 m c t.val t.isLt).2.2.2.1 = k0_pay7 (sc m c t.val t.isLt).2.2.2.1 :=
  congrArg (fun p => p.2.2.2.1) (outs_all m c t h3)
theorem out6_eq (c : Dev nD) (t : Fin cfg0.N) (h3 : t.val % 4 = 3) : (outsAt0 m c t.val t.isLt).2.2.2.2.1 = k0_pay8 (sc m c t.val t.isLt).2.2.2.2 :=
  congrArg (fun p => p.2.2.2.2) (outs_all m c t h3)

/-- `sc` at any natural number (cleared accumulators past the grid). -/
def scN (c : Dev nD) (n : ℕ) : Acc F := if h : n < cfg0.N then sc m c n h else init

theorem scN_of_lt (c : Dev nD) (n : ℕ) (h : n < cfg0.N) : scN m c n = sc m c n h := dif_pos h

theorem hN : cfg0.N = 8 := N_0

/-- The result windows' printed index maps over the grid: row `t / 4` (the core), the other coordinates 0. -/
theorem idx_out : ∀ t : Fin cfg0.N,
    (win0_2.index t (0 : Fin 3) = t.val / 4 ∧ win0_2.index t (1 : Fin 3) = 0 ∧ win0_2.index t (2 : Fin 3) = 0)
    ∧ (win0_3.index t (0 : Fin 3) = t.val / 4 ∧ win0_3.index t (1 : Fin 3) = 0 ∧ win0_3.index t (2 : Fin 3) = 0)
    ∧ (win0_4.index t (0 : Fin 3) = t.val / 4 ∧ win0_4.index t (1 : Fin 3) = 0 ∧ win0_4.index t (2 : Fin 3) = 0)
    ∧ (win0_5.index t (0 : Fin 3) = t.val / 4 ∧ win0_5.index t (1 : Fin 3) = 0 ∧ win0_5.index t (2 : Fin 3) = 0)
    ∧ (win0_6.index t (0 : Fin 3) = t.val / 4 ∧ win0_6.index t (1 : Fin 3) = 0 ∧ win0_6.index t (2 : Fin 3) = 0) :=
  (by decide +kernel : ∀ t : Fin grid0.N, _)

end Cert.KernelIdeal.Chain

end
-- ==== Proof.KArrays.lean ====
/-
  The five result arrays after the run.

  Result array w has one row per core; a core's row is written once, by the core's fourth point, with the core's
  accumulator w.  Every row is written, so after the run the array is the accumulators after points 3 and 7.
-/
import proofs.«116562_j1151051235756_2_alg».proof.Proof.KChain
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Chain

open Cert.KernelIdeal Cert.KernelIdeal.Gen Cert.KernelIdeal.GenP

variable {F : FTy → Type} [FloatOps F]
variable (m : (ℓ : Loc nD τ sig) → Buf (Elt F) ℓ)

/-- Result array 0 after the run: row `p` holds core `p`'s accumulator 0 after its fourth point. -/
def G2 (c : Dev nD) : Buf (Elt F) ((c : Thread nD τ).loc main_v1_0) :=
  fun i => k0_pay4 (scN m c (4 * (i 0).val + 3)).1 (ix3 (0 : Fin 1) (0 : Fin 1) (i 2))

/-- What a core's fourth point writes back to result array 0 is its row of `G2`. -/
theorem flushed2_eq (c : Dev nD) (t : Fin cfg0.N) (hf : (cfg0.win 2).flush t = true) :
    (dats m 0 c).flushed 2 t = ((cfg0.win 2).blk t).view.read (Elt F) (G2 m c) := by
  have h3 : t.val % 4 = 3 := (flush0_2 t).mp hf
  obtain ⟨q2, q3, q4, q5, q6⟩ := idx_out t
  have e0 : win0_2.index t (0 : Fin 3) = t.val / 4 := q2.1
  have e2 : win0_2.index t (2 : Fin 3) = 0 := q2.2.2
  show (cfg0.win 2).cut (grid0.coords t) ((dats m 0 c).after 2 t) = _
  rw [after0_2, out2_eq m c t h3]
  funext j
  rw [View.read_apply]
  show k0_pay4 (sc m c t.val t.isLt).1 j = G2 m c (((cfg0.win 2).blk t).view.emb j)
  unfold G2
  have hj0 : (j 0).val = 0 := Nat.lt_one_iff.mp (j 0).isLt
  have hj1 : (j 1).val = 0 := Nat.lt_one_iff.mp (j 1).isLt
  have he0 : ((((cfg0.win 2).blk t).view.emb j) 0).val = t.val / 4 := by
    show win0_2.index t (0 : Fin 3) * 1 + 1 * (j 0).val = _
    rw [e0, hj0]; omega
  have he2 : ((((cfg0.win 2).blk t).view.emb j) 2).val = (j 2).val := by
    show win0_2.index t (2 : Fin 3) * 128 + 1 * (j 2).val = _
    rw [e2]; omega
  have hn : 4 * ((((cfg0.win 2).blk t).view.emb j) 0).val + 3 = t.val := by rw [he0]; omega
  rw [hn, scN_of_lt m c t.val t.isLt]
  refine congrArg _ (funext fun a => Fin.ext ?_)
  match a with
  | ⟨0, _⟩ => exact hj0
  | ⟨1, _⟩ => exact hj1
  | ⟨2, _⟩ => exact he2.symm

/-- Every row of result array 0 is some core's fourth point's block. -/
theorem cover2 (i : S2x1x128.Idx) :
    ∃ t : Fin cfg0.N, (cfg0.win 2).flush t = true ∧ i ∈ ((cfg0.win 2).blk t).view.set := by
  have hi0 : (i 0).val < 2 := (i 0).isLt
  have hi1 : (i 1).val < 1 := (i 1).isLt
  have hi2 : (i 2).val < 128 := (i 2).isLt
  have hlt : 4 * (i 0).val + 3 < cfg0.N := by rw [hN]; omega
  obtain ⟨q2, q3, q4, q5, q6⟩ := idx_out ⟨4 * (i 0).val + 3, hlt⟩
  have e0 : win0_2.index ⟨4 * (i 0).val + 3, hlt⟩ (0 : Fin 3) = (4 * (i 0).val + 3) / 4 := q2.1
  have e1 : win0_2.index ⟨4 * (i 0).val + 3, hlt⟩ (1 : Fin 3) = 0 := q2.2.1
  have e2 : win0_2.index ⟨4 * (i 0).val + 3, hlt⟩ (2 : Fin 3) = 0 := q2.2.2
  refine ⟨⟨4 * (i 0).val + 3, hlt⟩, (flush0_2 _).mpr (by show (4 * (i 0).val + 3) % 4 = 3; omega), ?_⟩
  show i ∈ ((View.whole main_v1_0).slice (win0_2.rect ⟨4 * (i 0).val + 3, hlt⟩)).set
  rw [View.set_slice_whole, Rect.mem_set_unit]
  intro a
  match a with
  | ⟨0, _⟩ =>
    show win0_2.index ⟨4 * (i 0).val + 3, hlt⟩ (0 : Fin 3) * 1 ≤ (i 0).val ∧ (i 0).val < win0_2.index ⟨4 * (i 0).val + 3, hlt⟩ (0 : Fin 3) * 1 + 1
    rw [e0]; omega
  | ⟨1, _⟩ =>
    show win0_2.index ⟨4 * (i 0).val + 3, hlt⟩ (1 : Fin 3) * 1 ≤ (i 1).val ∧ (i 1).val < win0_2.index ⟨4 * (i 0).val + 3, hlt⟩ (1 : Fin 3) * 1 + 1
    rw [e1]; omega
  | ⟨2, _⟩ =>
    show win0_2.index ⟨4 * (i 0).val + 3, hlt⟩ (2 : Fin 3) * 128 ≤ (i 2).val ∧ (i 2).val < win0_2.index ⟨4 * (i 0).val + 3, hlt⟩ (2 : Fin 3) * 128 + 128
    rw [e2]; omega

/-- Result array 0 ends holding `G2`. -/
theorem final2 (c : Dev nD) : (dats m 0 c).arrAt 2 cfg0.N = G2 m c :=
  (dats m 0 c).arrAt_eq_of_cover 2 (G2 m c) (flushed2_eq m c) cover2

/-- Result array 1 after the run: row `p` holds core `p`'s accumulator 1 after its fourth point. -/
def G3 (c : Dev nD) : Buf (Elt F) ((c : Thread nD τ).loc main_v1_1) :=
  fun i => k0_pay5 (scN m c (4 * (i 0).val + 3)).2.1 (ix3 (0 : Fin 1) (0 : Fin 1) (i 2))

/-- What a core's fourth point writes back to result array 1 is its row of `G3`. -/
theorem flushed3_eq (c : Dev nD) (t : Fin cfg0.N) (hf : (cfg0.win 3).flush t = true) :
    (dats m 0 c).flushed 3 t = ((cfg0.win 3).blk t).view.read (Elt F) (G3 m c) := by
  have h3 : t.val % 4 = 3 := (flush0_3 t).mp hf
  obtain ⟨q2, q3, q4, q5, q6⟩ := idx_out t
  have e0 : win0_3.index t (0 : Fin 3) = t.val / 4 := q3.1
  have e2 : win0_3.index t (2 : Fin 3) = 0 := q3.2.2
  show (cfg0.win 3).cut (grid0.coords t) ((dats m 0 c).after 3 t) = _
  rw [after0_3, out3_eq m c t h3]
  funext j
  rw [View.read_apply]
  show k0_pay5 (sc m c t.val t.isLt).2.1 j = G3 m c (((cfg0.win 3).blk t).view.emb j)
  unfold G3
  have hj0 : (j 0).val = 0 := Nat.lt_one_iff.mp (j 0).isLt
  have hj1 : (j 1).val = 0 := Nat.lt_one_iff.mp (j 1).isLt
  have he0 : ((((cfg0.win 3).blk t).view.emb j) 0).val = t.val / 4 := by
    show win0_3.index t (0 : Fin 3) * 1 + 1 * (j 0).val = _
    rw [e0, hj0]; omega
  have he2 : ((((cfg0.win 3).blk t).view.emb j) 2).val = (j 2).val := by
    show win0_3.index t (2 : Fin 3) * 128 + 1 * (j 2).val = _
    rw [e2]; omega
  have hn : 4 * ((((cfg0.win 3).blk t).view.emb j) 0).val + 3 = t.val := by rw [he0]; omega
  rw [hn, scN_of_lt m c t.val t.isLt]
  refine congrArg _ (funext fun a => Fin.ext ?_)
  match a with
  | ⟨0, _⟩ => exact hj0
  | ⟨1, _⟩ => exact hj1
  | ⟨2, _⟩ => exact he2.symm

/-- Every row of result array 1 is some core's fourth point's block. -/
theorem cover3 (i : S2x1x128.Idx) :
    ∃ t : Fin cfg0.N, (cfg0.win 3).flush t = true ∧ i ∈ ((cfg0.win 3).blk t).view.set := by
  have hi0 : (i 0).val < 2 := (i 0).isLt
  have hi1 : (i 1).val < 1 := (i 1).isLt
  have hi2 : (i 2).val < 128 := (i 2).isLt
  have hlt : 4 * (i 0).val + 3 < cfg0.N := by rw [hN]; omega
  obtain ⟨q2, q3, q4, q5, q6⟩ := idx_out ⟨4 * (i 0).val + 3, hlt⟩
  have e0 : win0_3.index ⟨4 * (i 0).val + 3, hlt⟩ (0 : Fin 3) = (4 * (i 0).val + 3) / 4 := q3.1
  have e1 : win0_3.index ⟨4 * (i 0).val + 3, hlt⟩ (1 : Fin 3) = 0 := q3.2.1
  have e2 : win0_3.index ⟨4 * (i 0).val + 3, hlt⟩ (2 : Fin 3) = 0 := q3.2.2
  refine ⟨⟨4 * (i 0).val + 3, hlt⟩, (flush0_3 _).mpr (by show (4 * (i 0).val + 3) % 4 = 3; omega), ?_⟩
  show i ∈ ((View.whole main_v1_1).slice (win0_3.rect ⟨4 * (i 0).val + 3, hlt⟩)).set
  rw [View.set_slice_whole, Rect.mem_set_unit]
  intro a
  match a with
  | ⟨0, _⟩ =>
    show win0_3.index ⟨4 * (i 0).val + 3, hlt⟩ (0 : Fin 3) * 1 ≤ (i 0).val ∧ (i 0).val < win0_3.index ⟨4 * (i 0).val + 3, hlt⟩ (0 : Fin 3) * 1 + 1
    rw [e0]; omega
  | ⟨1, _⟩ =>
    show win0_3.index ⟨4 * (i 0).val + 3, hlt⟩ (1 : Fin 3) * 1 ≤ (i 1).val ∧ (i 1).val < win0_3.index ⟨4 * (i 0).val + 3, hlt⟩ (1 : Fin 3) * 1 + 1
    rw [e1]; omega
  | ⟨2, _⟩ =>
    show win0_3.index ⟨4 * (i 0).val + 3, hlt⟩ (2 : Fin 3) * 128 ≤ (i 2).val ∧ (i 2).val < win0_3.index ⟨4 * (i 0).val + 3, hlt⟩ (2 : Fin 3) * 128 + 128
    rw [e2]; omega

/-- Result array 1 ends holding `G3`. -/
theorem final3 (c : Dev nD) : (dats m 0 c).arrAt 3 cfg0.N = G3 m c :=
  (dats m 0 c).arrAt_eq_of_cover 3 (G3 m c) (flushed3_eq m c) cover3

/-- Result array 2 after the run: row `p` holds core `p`'s accumulator 2 after its fourth point. -/
def G4 (c : Dev nD) : Buf (Elt F) ((c : Thread nD τ).loc main_v1_2) :=
  fun i => k0_pay6 (scN m c (4 * (i 0).val + 3)).2.2.1 (ix3 (0 : Fin 1) (0 : Fin 1) (i 2))

/-- What a core's fourth point writes back to result array 2 is its row of `G4`. -/
theorem flushed4_eq (c : Dev nD) (t : Fin cfg0.N) (hf : (cfg0.win 4).flush t = true) :
    (dats m 0 c).flushed 4 t = ((cfg0.win 4).blk t).view.read (Elt F) (G4 m c) := by
  have h3 : t.val % 4 = 3 := (flush0_4 t).mp hf
  obtain ⟨q2, q3, q4, q5, q6⟩ := idx_out t
  have e0 : win0_4.index t (0 : Fin 3) = t.val / 4 := q4.1
  have e2 : win0_4.index t (2 : Fin 3) = 0 := q4.2.2
  show (cfg0.win 4).cut (grid0.coords t) ((dats m 0 c).after 4 t) = _
  rw [after0_4, out4_eq m c t h3]
  funext j
  rw [View.read_apply]
  show k0_pay6 (sc m c t.val t.isLt).2.2.1 j = G4 m c (((cfg0.win 4).blk t).view.emb j)
  unfold G4
  have hj0 : (j 0).val = 0 := Nat.lt_one_iff.mp (j 0).isLt
  have hj1 : (j 1).val = 0 := Nat.lt_one_iff.mp (j 1).isLt
  have he0 : ((((cfg0.win 4).blk t).view.emb j) 0).val = t.val / 4 := by
    show win0_4.index t (0 : Fin 3) * 1 + 1 * (j 0).val = _
    rw [e0, hj0]; omega
  have he2 : ((((cfg0.win 4).blk t).view.emb j) 2).val = (j 2).val := by
    show win0_4.index t (2 : Fin 3) * 1 + 1 * (j 2).val = _
    rw [e2]; omega
  have hn : 4 * ((((cfg0.win 4).blk t).view.emb j) 0).val + 3 = t.val := by rw [he0]; omega
  rw [hn, scN_of_lt m c t.val t.isLt]
  refine congrArg _ (funext fun a => Fin.ext ?_)
  match a with
  | ⟨0, _⟩ => exact hj0
  | ⟨1, _⟩ => exact hj1
  | ⟨2, _⟩ => exact he2.symm

/-- Every row of result array 2 is some core's fourth point's block. -/
theorem cover4 (i : S2x1x1.Idx) :
    ∃ t : Fin cfg0.N, (cfg0.win 4).flush t = true ∧ i ∈ ((cfg0.win 4).blk t).view.set := by
  have hi0 : (i 0).val < 2 := (i 0).isLt
  have hi1 : (i 1).val < 1 := (i 1).isLt
  have hi2 : (i 2).val < 1 := (i 2).isLt
  have hlt : 4 * (i 0).val + 3 < cfg0.N := by rw [hN]; omega
  obtain ⟨q2, q3, q4, q5, q6⟩ := idx_out ⟨4 * (i 0).val + 3, hlt⟩
  have e0 : win0_4.index ⟨4 * (i 0).val + 3, hlt⟩ (0 : Fin 3) = (4 * (i 0).val + 3) / 4 := q4.1
  have e1 : win0_4.index ⟨4 * (i 0).val + 3, hlt⟩ (1 : Fin 3) = 0 := q4.2.1
  have e2 : win0_4.index ⟨4 * (i 0).val + 3, hlt⟩ (2 : Fin 3) = 0 := q4.2.2
  refine ⟨⟨4 * (i 0).val + 3, hlt⟩, (flush0_4 _).mpr (by show (4 * (i 0).val + 3) % 4 = 3; omega), ?_⟩
  show i ∈ ((View.whole main_v1_2).slice (win0_4.rect ⟨4 * (i 0).val + 3, hlt⟩)).set
  rw [View.set_slice_whole, Rect.mem_set_unit]
  intro a
  match a with
  | ⟨0, _⟩ =>
    show win0_4.index ⟨4 * (i 0).val + 3, hlt⟩ (0 : Fin 3) * 1 ≤ (i 0).val ∧ (i 0).val < win0_4.index ⟨4 * (i 0).val + 3, hlt⟩ (0 : Fin 3) * 1 + 1
    rw [e0]; omega
  | ⟨1, _⟩ =>
    show win0_4.index ⟨4 * (i 0).val + 3, hlt⟩ (1 : Fin 3) * 1 ≤ (i 1).val ∧ (i 1).val < win0_4.index ⟨4 * (i 0).val + 3, hlt⟩ (1 : Fin 3) * 1 + 1
    rw [e1]; omega
  | ⟨2, _⟩ =>
    show win0_4.index ⟨4 * (i 0).val + 3, hlt⟩ (2 : Fin 3) * 1 ≤ (i 2).val ∧ (i 2).val < win0_4.index ⟨4 * (i 0).val + 3, hlt⟩ (2 : Fin 3) * 1 + 1
    rw [e2]; omega

/-- Result array 2 ends holding `G4`. -/
theorem final4 (c : Dev nD) : (dats m 0 c).arrAt 4 cfg0.N = G4 m c :=
  (dats m 0 c).arrAt_eq_of_cover 4 (G4 m c) (flushed4_eq m c) cover4

/-- Result array 3 after the run: row `p` holds core `p`'s accumulator 3 after its fourth point. -/
def G5 (c : Dev nD) : Buf (Elt F) ((c : Thread nD τ).loc main_v1_3) :=
  fun i => k0_pay7 (scN m c (4 * (i 0).val + 3)).2.2.2.1 (ix3 (0 : Fin 1) (0 : Fin 1) (i 2))

/-- What a core's fourth point writes back to result array 3 is its row of `G5`. -/
theorem flushed5_eq (c : Dev nD) (t : Fin cfg0.N) (hf : (cfg0.win 5).flush t = true) :
    (dats m 0 c).flushed 5 t = ((cfg0.win 5).blk t).view.read (Elt F) (G5 m c) := by
  have h3 : t.val % 4 = 3 := (flush0_5 t).mp hf
  obtain ⟨q2, q3, q4, q5, q6⟩ := idx_out t
  have e0 : win0_5.index t (0 : Fin 3) = t.val / 4 := q5.1
  have e2 : win0_5.index t (2 : Fin 3) = 0 := q5.2.2
  show (cfg0.win 5).cut (grid0.coords t) ((dats m 0 c).after 5 t) = _
  rw [after0_5, out5_eq m c t h3]
  funext j
  rw [View.read_apply]
  show k0_pay7 (sc m c t.val t.isLt).2.2.2.1 j = G5 m c (((cfg0.win 5).blk t).view.emb j)
  unfold G5
  have hj0 : (j 0).val = 0 := Nat.lt_one_iff.mp (j 0).isLt
  have hj1 : (j 1).val = 0 := Nat.lt_one_iff.mp (j 1).isLt
  have he0 : ((((cfg0.win 5).blk t).view.emb j) 0).val = t.val / 4 := by
    show win0_5.index t (0 : Fin 3) * 1 + 1 * (j 0).val = _
    rw [e0, hj0]; omega
  have he2 : ((((cfg0.win 5).blk t).view.emb j) 2).val = (j 2).val := by
    show win0_5.index t (2 : Fin 3) * 1 + 1 * (j 2).val = _
    rw [e2]; omega
  have hn : 4 * ((((cfg0.win 5).blk t).view.emb j) 0).val + 3 = t.val := by rw [he0]; omega
  rw [hn, scN_of_lt m c t.val t.isLt]
  refine congrArg _ (funext fun a => Fin.ext ?_)
  match a with
  | ⟨0, _⟩ => exact hj0
  | ⟨1, _⟩ => exact hj1
  | ⟨2, _⟩ => exact he2.symm

/-- Every row of result array 3 is some core's fourth point's block. -/
theorem cover5 (i : S2x1x1.Idx) :
    ∃ t : Fin cfg0.N, (cfg0.win 5).flush t = true ∧ i ∈ ((cfg0.win 5).blk t).view.set := by
  have hi0 : (i 0).val < 2 := (i 0).isLt
  have hi1 : (i 1).val < 1 := (i 1).isLt
  have hi2 : (i 2).val < 1 := (i 2).isLt
  have hlt : 4 * (i 0).val + 3 < cfg0.N := by rw [hN]; omega
  obtain ⟨q2, q3, q4, q5, q6⟩ := idx_out ⟨4 * (i 0).val + 3, hlt⟩
  have e0 : win0_5.index ⟨4 * (i 0).val + 3, hlt⟩ (0 : Fin 3) = (4 * (i 0).val + 3) / 4 := q5.1
  have e1 : win0_5.index ⟨4 * (i 0).val + 3, hlt⟩ (1 : Fin 3) = 0 := q5.2.1
  have e2 : win0_5.index ⟨4 * (i 0).val + 3, hlt⟩ (2 : Fin 3) = 0 := q5.2.2
  refine ⟨⟨4 * (i 0).val + 3, hlt⟩, (flush0_5 _).mpr (by show (4 * (i 0).val + 3) % 4 = 3; omega), ?_⟩
  show i ∈ ((View.whole main_v1_3).slice (win0_5.rect ⟨4 * (i 0).val + 3, hlt⟩)).set
  rw [View.set_slice_whole, Rect.mem_set_unit]
  intro a
  match a with
  | ⟨0, _⟩ =>
    show win0_5.index ⟨4 * (i 0).val + 3, hlt⟩ (0 : Fin 3) * 1 ≤ (i 0).val ∧ (i 0).val < win0_5.index ⟨4 * (i 0).val + 3, hlt⟩ (0 : Fin 3) * 1 + 1
    rw [e0]; omega
  | ⟨1, _⟩ =>
    show win0_5.index ⟨4 * (i 0).val + 3, hlt⟩ (1 : Fin 3) * 1 ≤ (i 1).val ∧ (i 1).val < win0_5.index ⟨4 * (i 0).val + 3, hlt⟩ (1 : Fin 3) * 1 + 1
    rw [e1]; omega
  | ⟨2, _⟩ =>
    show win0_5.index ⟨4 * (i 0).val + 3, hlt⟩ (2 : Fin 3) * 1 ≤ (i 2).val ∧ (i 2).val < win0_5.index ⟨4 * (i 0).val + 3, hlt⟩ (2 : Fin 3) * 1 + 1
    rw [e2]; omega

/-- Result array 3 ends holding `G5`. -/
theorem final5 (c : Dev nD) : (dats m 0 c).arrAt 5 cfg0.N = G5 m c :=
  (dats m 0 c).arrAt_eq_of_cover 5 (G5 m c) (flushed5_eq m c) cover5

/-- Result array 4 after the run: row `p` holds core `p`'s accumulator 4 after its fourth point. -/
def G6 (c : Dev nD) : Buf (Elt F) ((c : Thread nD τ).loc main_v1_4) :=
  fun i => k0_pay8 (scN m c (4 * (i 0).val + 3)).2.2.2.2 (ix3 (0 : Fin 1) (0 : Fin 1) (i 2))

/-- What a core's fourth point writes back to result array 4 is its row of `G6`. -/
theorem flushed6_eq (c : Dev nD) (t : Fin cfg0.N) (hf : (cfg0.win 6).flush t = true) :
    (dats m 0 c).flushed 6 t = ((cfg0.win 6).blk t).view.read (Elt F) (G6 m c) := by
  have h3 : t.val % 4 = 3 := (flush0_6 t).mp hf
  obtain ⟨q2, q3, q4, q5, q6⟩ := idx_out t
  have e0 : win0_6.index t (0 : Fin 3) = t.val / 4 := q6.1
  have e2 : win0_6.index t (2 : Fin 3) = 0 := q6.2.2
  show (cfg0.win 6).cut (grid0.coords t) ((dats m 0 c).after 6 t) = _
  rw [after0_6, out6_eq m c t h3]
  funext j
  rw [View.read_apply]
  show k0_pay8 (sc m c t.val t.isLt).2.2.2.2 j = G6 m c (((cfg0.win 6).blk t).view.emb j)
  unfold G6
  have hj0 : (j 0).val = 0 := Nat.lt_one_iff.mp (j 0).isLt
  have hj1 : (j 1).val = 0 := Nat.lt_one_iff.mp (j 1).isLt
  have he0 : ((((cfg0.win 6).blk t).view.emb j) 0).val = t.val / 4 := by
    show win0_6.index t (0 : Fin 3) * 1 + 1 * (j 0).val = _
    rw [e0, hj0]; omega
  have he2 : ((((cfg0.win 6).blk t).view.emb j) 2).val = (j 2).val := by
    show win0_6.index t (2 : Fin 3) * 1 + 1 * (j 2).val = _
    rw [e2]; omega
  have hn : 4 * ((((cfg0.win 6).blk t).view.emb j) 0).val + 3 = t.val := by rw [he0]; omega
  rw [hn, scN_of_lt m c t.val t.isLt]
  refine congrArg _ (funext fun a => Fin.ext ?_)
  match a with
  | ⟨0, _⟩ => exact hj0
  | ⟨1, _⟩ => exact hj1
  | ⟨2, _⟩ => exact he2.symm

/-- Every row of result array 4 is some core's fourth point's block. -/
theorem cover6 (i : S2x1x1.Idx) :
    ∃ t : Fin cfg0.N, (cfg0.win 6).flush t = true ∧ i ∈ ((cfg0.win 6).blk t).view.set := by
  have hi0 : (i 0).val < 2 := (i 0).isLt
  have hi1 : (i 1).val < 1 := (i 1).isLt
  have hi2 : (i 2).val < 1 := (i 2).isLt
  have hlt : 4 * (i 0).val + 3 < cfg0.N := by rw [hN]; omega
  obtain ⟨q2, q3, q4, q5, q6⟩ := idx_out ⟨4 * (i 0).val + 3, hlt⟩
  have e0 : win0_6.index ⟨4 * (i 0).val + 3, hlt⟩ (0 : Fin 3) = (4 * (i 0).val + 3) / 4 := q6.1
  have e1 : win0_6.index ⟨4 * (i 0).val + 3, hlt⟩ (1 : Fin 3) = 0 := q6.2.1
  have e2 : win0_6.index ⟨4 * (i 0).val + 3, hlt⟩ (2 : Fin 3) = 0 := q6.2.2
  refine ⟨⟨4 * (i 0).val + 3, hlt⟩, (flush0_6 _).mpr (by show (4 * (i 0).val + 3) % 4 = 3; omega), ?_⟩
  show i ∈ ((View.whole main_v1_4).slice (win0_6.rect ⟨4 * (i 0).val + 3, hlt⟩)).set
  rw [View.set_slice_whole, Rect.mem_set_unit]
  intro a
  match a with
  | ⟨0, _⟩ =>
    show win0_6.index ⟨4 * (i 0).val + 3, hlt⟩ (0 : Fin 3) * 1 ≤ (i 0).val ∧ (i 0).val < win0_6.index ⟨4 * (i 0).val + 3, hlt⟩ (0 : Fin 3) * 1 + 1
    rw [e0]; omega
  | ⟨1, _⟩ =>
    show win0_6.index ⟨4 * (i 0).val + 3, hlt⟩ (1 : Fin 3) * 1 ≤ (i 1).val ∧ (i 1).val < win0_6.index ⟨4 * (i 0).val + 3, hlt⟩ (1 : Fin 3) * 1 + 1
    rw [e1]; omega
  | ⟨2, _⟩ =>
    show win0_6.index ⟨4 * (i 0).val + 3, hlt⟩ (2 : Fin 3) * 1 ≤ (i 2).val ∧ (i 2).val < win0_6.index ⟨4 * (i 0).val + 3, hlt⟩ (2 : Fin 3) * 1 + 1
    rw [e2]; omega

/-- Result array 4 ends holding `G6`. -/
theorem final6 (c : Dev nD) : (dats m 0 c).arrAt 6 cfg0.N = G6 m c :=
  (dats m 0 c).arrAt_eq_of_cover 6 (G6 m c) (flushed6_eq m c) cover6

end Cert.KernelIdeal.Chain

end
-- ==== Proof.FisherSpec.lean ====
/-
  The Fisher discriminant ratio of two classes, written two ways over the extended reals.

  Rows `i : ι` of a data matrix `x i d` (columns `d : δ`) carry a class mask `m0 i`, `m1 i` (one of the two
  is 1, the other 0).  The within-class scatter is  Sw = Σ_c Σ_{i in c} ‖x_i − mean_c‖²,  the total scatter
  St = Σ_i ‖x_i − mean‖²,  the between-class scatter  Sb = St − Sw,  and the ratio is  Sw / Sb.

  `ratioTwoPass` forms exactly that: the class means first, then the centred squares.
  `ratioOfStats` forms it from five sums taken in one pass over the rows — Σ x, Σ_{class 0} x, Σ ‖x‖²,
  Σ_{class 0} ‖x‖², and the size n0 of class 0 — with  n1 = N − n0,  Sw_c = Σ_c ‖x‖² − n_c ‖mean_c‖²  and the
  two-class identity  Sb = (n0 n1 / N) ‖mean0 − mean1‖².

  The quotient is `Ideal.div`: `x / 0` is `⊤` for `x > 0` and `⊥` otherwise, so an empty class gives a mean of `⊥`;
  the products with the empty class's size `0` then vanish on both sides.
-/
import Idealize.ShloMosaic.PureOps.Ideal
import Idealize.ShloMosaic.PureOps.Ideal.Laws

noncomputable section

namespace Cert.Fisher

open Idealize.ShloMosaic

variable {ι δ : Type} [Fintype ι] [Fintype δ]

/-- The ratio from the five one-pass sums: `sall d = Σ_i x i d`, `s0 d = Σ_{i in class 0} x i d`,
    `qall = Σ_i Σ_d (x i d)²`, `q0` the same over class 0, `n0` the size of class 0, `N` the number of rows. -/
def ratioOfStats (N : EReal) (sall s0 : δ → EReal) (qall q0 n0 : EReal) : EReal :=
  let n1 : EReal := N - n0
  let mean0 : δ → EReal := fun d => Ideal.div (s0 d) n0
  let mean1 : δ → EReal := fun d => Ideal.div (sall d - s0 d) n1
  let sw0 : EReal := q0 - n0 * ∑ d, mean0 d * mean0 d
  let sw1 : EReal := (qall - q0) - n1 * ∑ d, mean1 d * mean1 d
  let sb : EReal := Ideal.div (n0 * n1) N * ∑ d, (mean0 d - mean1 d) * (mean0 d - mean1 d)
  Ideal.div (sw0 + sw1) sb

/-- The ratio by two passes: class sizes and class means, then the centred squares within each class and overall. -/
def ratioTwoPass (N : EReal) (x : ι → δ → EReal) (m0 m1 : ι → EReal) : EReal :=
  let n0 : EReal := ∑ i, m0 i
  let n1 : EReal := ∑ i, m1 i
  let mean0 : δ → EReal := fun d => Ideal.div (∑ i, x i d * m0 i) n0
  let mean1 : δ → EReal := fun d => Ideal.div (∑ i, x i d * m1 i) n1
  let sw0 : EReal := ∑ i, ∑ d, m0 i * ((x i d - mean0 d) * (x i d - mean0 d))
  let sw1 : EReal := ∑ i, ∑ d, m1 i * ((x i d - mean1 d) * (x i d - mean1 d))
  let sw : EReal := sw0 + sw1
  let meanAll : δ → EReal := fun d => Ideal.div (∑ i, x i d) N
  let st : EReal := ∑ i, ∑ d, (x i d - meanAll d) * (x i d - meanAll d)
  Ideal.div sw (st - sw)

/-- The coercion of a finite real sum is the sum of the coercions. -/
theorem coe_sum {κ : Type} (s : Finset κ) (f : κ → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

end Cert.Fisher

end
-- ==== Proof.LibBlockSum.lean ====
/-
  Sums over one long axis, cut into equal blocks.

  A rank-1 index set of extent n is Fin n, and a [1, n] index set is Fin n too, so a sum over either is a sum
  over Fin n.  An axis of extent N = B · n is B consecutive blocks of n, and the sum over Fin N is the double
  sum over (block, position in the block) at the index block · n + position.  At the exact values a lane sum
  of a [1, n] vector cast from a rank-1 vector is the plain sum of that vector, and the host's sum of a rank-1
  array down to a scalar is its initial value plus the plain sum.
-/
import Idealize.ShloMosaic.PureOps.Ideal.Laws
import Idealize.ShloMosaic.Lib.ValueIdx
import Idealize.ShloMosaic.Lib.ValueLayout

noncomputable section

open scoped BigOperators

namespace Cert.LibBlockSum

open Idealize.ShloMosaic Idealize.ShloMosaic.ValueIdx

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over a [1, n] index set is the sum over the second coordinate, the first being 0. -/
theorem sum_idx_1n {M : Type*} [AddCommMonoid M] {n : Nat} (f : (⟨2, ![1, n]⟩ : Shape).Idx → M) :
    ∑ i, f i = ∑ a : Fin n, f (ix2 (0 : Fin 1) a) := by
  rw [sum_idx2, Fin.sum_univ_one]

/-- Position `j` of block `t` on an axis of `B` blocks of `n`. -/
def blockIdx {B n N : Nat} (h : B * n = N) (t : Fin B) (j : Fin n) : Fin N :=
  ⟨t.val * n + j.val, by
    have h1 : t.val * n + j.val < t.val * n + n := Nat.add_lt_add_left j.isLt _
    have h2 : t.val * n + n ≤ B * n := by
      rw [← Nat.succ_mul]; exact Nat.mul_le_mul_right _ t.isLt
    omega⟩

theorem blockIdx_val {B n N : Nat} (h : B * n = N) (t : Fin B) (j : Fin n) :
    (blockIdx h t j).val = t.val * n + j.val := rfl

/-- The sum over an axis of `B` blocks of `n` is the sum over the blocks of the sums inside each. -/
theorem sum_blocks {M : Type*} [AddCommMonoid M] {B n N : Nat} (h : B * n = N) (f : Fin N → M) :
    ∑ r, f r = ∑ t : Fin B, ∑ j : Fin n, f (blockIdx h t j) := by
  subst h
  rw [← Equiv.sum_comp finProdFinEquiv f, Fintype.sum_prod_type]
  refine Finset.sum_congr rfl fun t _ => Finset.sum_congr rfl fun j _ => congrArg f (Fin.ext ?_)
  show j.val + n * t.val = t.val * n + j.val
  rw [Nat.mul_comm, Nat.add_comm]

/-- The lane sum of a rank-1 vector cast to [1, n], cast on to [1, 1] and read at its one entry, is the plain
    sum of the vector's entries. -/
theorem laneSum_eq {n : Nat} (x : FVec Ideal ⟨1, ![n]⟩ .f32)
    (hc : (⟨1, ![n]⟩ : Shape).ShapeCasts ⟨2, ![1, n]⟩)
    (hr : (⟨2, ![1, n]⟩ : Shape).Reduces [1] ⟨1, ![1]⟩) (hφ : FKind.Formats .f32)
    (hacc : (0x00000000#32 : BitVec 32) = FKind.add.neutral .f32 hφ)
    (hc' : (⟨1, ![1]⟩ : Shape).ShapeCasts ⟨2, ![1, 1]⟩) (hp : ∀ a, (![0, 0] : Fin 2 → Nat) a < (⟨2, ![1, 1]⟩ : Shape).size a) :
    extractAt ![0, 0] (shapeCast ⟨2, ![1, 1]⟩ (multiReduction .add [1] ⟨1, ![1]⟩ (shapeCast ⟨2, ![1, n]⟩ x hc) 0x00000000#32 hr hφ hacc) hc') hp
      = ∑ a : Fin n, x (ix1 a) := by
  unfold extractAt
  have e : (fun a => (⟨(![0, 0] : Fin 2 → Nat) a, hp a⟩ : Fin ((⟨2, ![1, 1]⟩ : Shape).size a))) = ix2 (0 : Fin 1) (0 : Fin 1) :=
    funext fun a => Fin.ext (by match a with | ⟨0, _⟩ => rfl | ⟨1, _⟩ => rfl)
  rw [e, shapeCast_a_1a_apply, Ideal.multiReduction_add_total _ _ _ (fun b => by match b with | ⟨0, _⟩ => rfl), sum_idx_1n]
  exact Finset.sum_congr rfl fun a _ => shapeCast_a_1a_apply x hc 0 a

/-- The host's sum of a rank-1 array down to a scalar, from the initial value `init`, is `init` plus the plain sum. -/
theorem hostSum_eq {n : Nat} (x : (⟨1, ![n]⟩ : Shape).Idx → EReal) (init : EReal)
    (h : (⟨1, ![n]⟩ : Shape).ReducesTo [0] ⟨0, ![]⟩) (j : (⟨0, ![]⟩ : Shape).Idx) :
    Ideal.hostReduceAdd h x init j = init + ∑ a : Fin n, x (ix1 a) := by
  rw [Ideal.hostReduceAdd_total h (fun b => b.elim0), sum_idx1]

end Cert.LibBlockSum

end
-- ==== Proof.KTail.lean ====
/-
  The host's closing arithmetic: from the five per-core partial sums to the ratio.

  Each core hands out its five partial sums as arrays with a leading axis of extent 2 (one entry per core).  The host
  adds the two cores' entries, forms  n1 = N − n0,  the class-1 sums by subtraction, the two class means, the two
  within-class scatters  Σ_c ‖x‖² − n_c ‖mean_c‖²,  the between-class scatter  (n0 n1 / N) ‖mean0 − mean1‖²  and their
  quotient.  Read at the exact values this is `ratioOfStats` of the added partial sums.
-/
import proofs.«116562_j1151051235756_2_alg».proof.KernelIdeal
import proofs.«116562_j1151051235756_2_alg».proof.Proof.FisherSpec
import proofs.«116562_j1151051235756_2_alg».proof.Proof.LibBlockSum
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tail

open Idealize.ShloMosaic Idealize.ShloMosaic.ValueIdx Cert.KernelIdeal Cert.KernelIdeal.Facts₀ Cert.LibBlockSum

variable [Facts₀]

/-- The host operations after the kernel, as one function of the kernel's five result arrays. -/
def tail {F : FTy → Type} [FloatOps F] (a0 a1 : FVec F S2x1x128 .f32) (a2 a3 a4 : FVec F S2x1x1 .f32) : FVec F S_ .f32 :=
  let z : FVec F S_ .f32 := constant S_ .f32 0x00000000#32
  let nn : FVec F S_ .f32 := constant S_ .f32 0x48435000#32
  let v2 : FVec F S128 .f32 := Host.reduceAdd a0 z reducesTo_S2x1x128_S128_d0_1 h_S_
  let v3 : FVec F S128 .f32 := Host.reduceAdd a1 z reducesTo_S2x1x128_S128_d0_1 h_S_
  let v4 : FVec F S_ .f32 := Host.reduceAdd a2 z reducesTo_S2x1x1_S_d0_1_2 h_S_
  let v5 : FVec F S_ .f32 := Host.reduceAdd a3 z reducesTo_S2x1x1_S_d0_1_2 h_S_
  let v6 : FVec F S_ .f32 := Host.reduceAdd a4 z reducesTo_S2x1x1_S_d0_1_2 h_S_
  let v7 : FVec F S_ .f32 := subf nn v6
  let v8 : FVec F S128 .f32 := subf v2 v3
  let v9 : FVec F S_ .f32 := subf v4 v5
  let v10 : FVec F S128 .f32 := broadcastInDim S128 ![] bcast_S_S128 v6
  let v11 : FVec F S128 .f32 := Host.divf v3 v10
  let v12 : FVec F S128 .f32 := broadcastInDim S128 ![] bcast_S_S128 v7
  let v13 : FVec F S128 .f32 := Host.divf v8 v12
  let v14 : FVec F S128 .f32 := mulf v11 v11
  let v15 : FVec F S_ .f32 := Host.reduceAdd v14 z reducesTo_S128_S_d0 h_S_
  let v16 : FVec F S_ .f32 := mulf v6 v15
  let v17 : FVec F S_ .f32 := subf v5 v16
  let v18 : FVec F S128 .f32 := mulf v13 v13
  let v19 : FVec F S_ .f32 := Host.reduceAdd v18 z reducesTo_S128_S_d0 h_S_
  let v20 : FVec F S_ .f32 := mulf v7 v19
  let v21 : FVec F S_ .f32 := subf v9 v20
  let v22 : FVec F S_ .f32 := addf v17 v21
  let v23 : FVec F S_ .f32 := mulf v6 v7
  let v24 : FVec F S_ .f32 := Host.divf v23 nn
  let v25 : FVec F S128 .f32 := subf v11 v13
  let v26 : FVec F S128 .f32 := mulf v25 v25
  let v27 : FVec F S_ .f32 := Host.reduceAdd v26 z reducesTo_S128_S_d0 h_S_
  let v28 : FVec F S_ .f32 := mulf v24 v27
  Host.divf v22 v28

/-- The host's sum over the two leading axes of a [2, 1, 128] array, at entry `d`: the initial value plus the two cores' entries. -/
theorem hsum_cores (x : S2x1x128.Idx → EReal) (init : EReal) (d : Fin 128) :
    Ideal.hostReduceAdd reducesTo_S2x1x128_S128_d0_1 x init (ix1 d)
      = init + (x (ix3 (0 : Fin 2) (0 : Fin 1) d) + x (ix3 (1 : Fin 2) (0 : Fin 1) d)) := by
  unfold Ideal.hostReduceAdd
  have hset : (Finset.univ.filter fun i : S2x1x128.Idx => reducesTo_S2x1x128_S128_d0_1.drop i = ix1 d)
      = {ix3 (0 : Fin 2) (0 : Fin 1) d, ix3 (1 : Fin 2) (0 : Fin 1) d} := by
    ext i
    simp only [Finset.mem_filter, Finset.mem_univ, true_and, Finset.mem_insert, Finset.mem_singleton]
    have hd : reducesTo_S2x1x128_S128_d0_1.drop i = ix1 (i 2) := funext fun b => Fin.ext (by
      match b with
      | ⟨0, _⟩ => exact Shape.ReducesTo.drop_apply_val_of_eq reducesTo_S2x1x128_S128_d0_1 i 0 2)
    rw [hd]
    constructor
    · intro e
      have e2 : i 2 = d := by have := congrFun e 0; exact this
      have h1 : i 1 = (0 : Fin 1) := Fin.ext (Nat.lt_one_iff.mp (i 1).isLt)
      rw [eq_ix3 i, h1, e2]
      have h0 : (i 0).val < 2 := (i 0).isLt
      rcases (by omega : (i 0).val = 0 ∨ (i 0).val = 1) with h | h
      · left; congr 1; exact Fin.ext h
      · right; congr 1; exact Fin.ext h
    · rintro (rfl | rfl) <;> rfl
  rw [hset, Finset.sum_pair]
  intro e
  have h01 : ((ix3 (0 : Fin 2) (0 : Fin 1) d : S2x1x128.Idx) 0).val = ((ix3 (1 : Fin 2) (0 : Fin 1) d : S2x1x128.Idx) 0).val :=
    congrArg Fin.val (congrFun e 0)
  exact absurd h01 (by show ¬ (0 : ℕ) = 1; decide)

/-- The host's sum of a [2, 1, 1] array down to a scalar: the initial value plus the two cores' entries. -/
theorem hsum_cores1 (x : S2x1x1.Idx → EReal) (init : EReal) (j : S_.Idx) :
    Ideal.hostReduceAdd reducesTo_S2x1x1_S_d0_1_2 x init j
      = init + (x (ix3 (0 : Fin 2) (0 : Fin 1) (0 : Fin 1)) + x (ix3 (1 : Fin 2) (0 : Fin 1) (0 : Fin 1))) := by
  rw [Ideal.hostReduceAdd_total reducesTo_S2x1x1_S_d0_1_2 (fun b => b.elim0)]
  have hset : (Finset.univ : Finset S2x1x1.Idx) = {ix3 (0 : Fin 2) (0 : Fin 1) (0 : Fin 1), ix3 (1 : Fin 2) (0 : Fin 1) (0 : Fin 1)} := by
    ext i
    simp only [Finset.mem_univ, Finset.mem_insert, Finset.mem_singleton, true_iff]
    have h1 : i 1 = (0 : Fin 1) := Fin.ext (Nat.lt_one_iff.mp (i 1).isLt)
    have h2 : i 2 = (0 : Fin 1) := Fin.ext (Nat.lt_one_iff.mp (i 2).isLt)
    rw [eq_ix3 i, h1, h2]
    have h0 : (i 0).val < 2 := (i 0).isLt
    rcases (by omega : (i 0).val = 0 ∨ (i 0).val = 1) with h | h
    · left; congr 1; exact Fin.ext h
    · right; congr 1; exact Fin.ext h
  rw [hset, Finset.sum_pair]
  intro e
  have h01 : ((ix3 (0 : Fin 2) (0 : Fin 1) (0 : Fin 1) : S2x1x1.Idx) 0).val = ((ix3 (1 : Fin 2) (0 : Fin 1) (0 : Fin 1) : S2x1x1.Idx) 0).val :=
    congrArg Fin.val (congrFun e 0)
  exact absurd h01 (by show ¬ (0 : ℕ) = 1; decide)

/-- The host's sum over the cores as a whole array. -/
theorem hsum_cores_fn (a : FVec Ideal S2x1x128 .f32) (z : FVec Ideal S_ .f32) :
    Host.reduceAdd (F := Ideal) a z reducesTo_S2x1x128_S128_d0_1 h_S_
      = fun i => z (Shape.Idx.first h_S_) + (a (ix3 (0 : Fin 2) (0 : Fin 1) (i 0)) + a (ix3 (1 : Fin 2) (0 : Fin 1) (i 0))) := by
  funext i
  simp only [Host.reduceAdd, Ideal.hostReduceAdd_def]
  rw [eq_ix1 i]
  exact hsum_cores a _ (i 0)

theorem hsum_cores1_fn (a : FVec Ideal S2x1x1 .f32) (z : FVec Ideal S_ .f32) :
    Host.reduceAdd (F := Ideal) a z reducesTo_S2x1x1_S_d0_1_2 h_S_
      = fun _ => z (Shape.Idx.first h_S_) + (a (ix3 (0 : Fin 2) (0 : Fin 1) (0 : Fin 1)) + a (ix3 (1 : Fin 2) (0 : Fin 1) (0 : Fin 1))) := by
  funext i
  simp only [Host.reduceAdd, Ideal.hostReduceAdd_def]
  exact hsum_cores1 a _ i

/-- The host's sum of a [128] array down to a scalar, as a whole array. -/
theorem hsum128_fn (v : FVec Ideal S128 .f32) (z : FVec Ideal S_ .f32) :
    Host.reduceAdd (F := Ideal) v z reducesTo_S128_S_d0 h_S_
      = fun _ => z (Shape.Idx.first h_S_) + ∑ d : Fin 128, v (ix1 d) := by
  funext i
  simp only [Host.reduceAdd, Ideal.hostReduceAdd_def]
  exact hostSum_eq v _ reducesTo_S128_S_d0 i

/-- A scalar broadcast to [128] holds the scalar everywhere. -/
theorem bcast128_fn {α : Type} (v : S_.Idx → α) :
    broadcastInDim S128 ![] bcast_S_S128 v = fun _ => v ix0 := by
  funext i
  exact broadcastInDim_apply _ bcast_S_S128 v i ix0 (fun a => a.elim0)

/-- THE TAIL AT THE EXACT VALUES: the ratio from the five sums, each the sum of the two cores' partial sums. -/
theorem tail_apply (a0 a1 : FVec Ideal S2x1x128 .f32) (a2 a3 a4 : FVec Ideal S2x1x1 .f32) (j : S_.Idx) :
    tail (F := Ideal) a0 a1 a2 a3 a4 j
      = Cert.Fisher.ratioOfStats (δ := Fin 128) (Ideal.ofBits .f32 0x48435000#32)
          (fun d => a0 (ix3 (0 : Fin 2) (0 : Fin 1) d) + a0 (ix3 (1 : Fin 2) (0 : Fin 1) d))
          (fun d => a1 (ix3 (0 : Fin 2) (0 : Fin 1) d) + a1 (ix3 (1 : Fin 2) (0 : Fin 1) d))
          (a2 (ix3 (0 : Fin 2) (0 : Fin 1) (0 : Fin 1)) + a2 (ix3 (1 : Fin 2) (0 : Fin 1) (0 : Fin 1)))
          (a3 (ix3 (0 : Fin 2) (0 : Fin 1) (0 : Fin 1)) + a3 (ix3 (1 : Fin 2) (0 : Fin 1) (0 : Fin 1)))
          (a4 (ix3 (0 : Fin 2) (0 : Fin 1) (0 : Fin 1)) + a4 (ix3 (1 : Fin 2) (0 : Fin 1) (0 : Fin 1))) := by
  unfold tail Cert.Fisher.ratioOfStats
  simp only [hsum_cores_fn, hsum_cores1_fn, hsum128_fn, bcast128_fn, subf, mulf, addf, Host.divf, constant,
    Ideal.subf_def, Ideal.mulf_def, Ideal.addf_def, Ideal.hostDivf_def, Ideal.ofBits_def, Ideal.ofBits_zero_f32, zero_add]
  rfl

end Cert.KernelIdeal.Tail

end
-- ==== Proof.KRun.lean ====
/-
  The program's result: the host's closing arithmetic of the five result arrays the kernel leaves.
-/
import proofs.«116562_j1151051235756_2_alg».proof.Proof.KArrays
import proofs.«116562_j1151051235756_2_alg».proof.Proof.KTail

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Chain

open Cert.KernelIdeal Cert.KernelIdeal.Gen Cert.KernelIdeal.GenP

variable {F : FTy → Type} [FloatOps F]
variable (m : (ℓ : Loc nD τ sig) → Buf (Elt F) ℓ)

/-- The program's result: the closing arithmetic of the five result arrays. -/
def result (c : Dev nD) : Buf (Elt F) ((c : Thread nD τ).loc main_v29) :=
  Cert.KernelIdeal.Tail.tail (G2 m c) (G3 m c) (G4 m c) (G5 m c) (G6 m c)

set_option maxHeartbeats 1600000 in
/-- The host operations after the kernel compute `result` from the arrays the kernel left. -/
theorem tail_eq (c : Dev nD) :
    Pipeline.afterTail₀ cfgs (dats m) 0 (V0 m) [hostOps1] c main_v29 = result m c := by
  unfold Pipeline.afterTail₀
  show StableHlo.after hostOps1 _ (Proc.devRef .tc main_v29) = _
  after_results_simp
  rw [Pipeline.withArrays_arr spec0 launch0.win.arr_inj c _ _ 2, Pipeline.withArrays_arr spec0 launch0.win.arr_inj c _ _ 3,
    Pipeline.withArrays_arr spec0 launch0.win.arr_inj c _ _ 4, Pipeline.withArrays_arr spec0 launch0.win.arr_inj c _ _ 5,
    Pipeline.withArrays_arr spec0 launch0.win.arr_inj c _ _ 6, final2, final3, final4, final5, final6]
  rfl

/-- The run, read: the result at `result`, the two arguments unchanged. -/
theorem run (ρ : Dev nD → PrngReg) : θ_run defs (onTc (τ := τ) (main (F := F))) ⟨m, fun _ => 0, ρ⟩ fun r => ∀ c : Dev nD,
      r.2.mem ((c.tc : Thread nD τ).loc main_v29) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v29 (Pipeline.mem_restRefs_of main_v29 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Chain

end
-- ==== Proof.KPay.lean ====
/-
  The body's arithmetic at the exact values, read at an index.

  One grid point sees a block `x` of 25000 rows of the data and the 25000 labels `l` of those rows, and adds to five
  running sums:  the column sums of the block;  the column sums of its class-0 rows (label −1);  the sum of all squared
  entries;  the sum of the squared entries of class-0 rows;  the number of class-0 rows.  The row sums are taken as
  products of a [1, 25000] row vector (all ones, or the class-0 indicator) with the [25000, 128] block; a product
  into a zero accumulator is the plain sum over the contracted coordinate, and a lane sum of one row is the plain sum
  of its entries.
-/
import proofs.«116562_j1151051235756_2_alg».proof.Proof.Gen.KernelIdeal.Skeleton
import proofs.«116562_j1151051235756_2_alg».proof.Proof.LibBlockSum
import Idealize.ShloMosaic.Lib.ValueIdx
import Idealize.ShloMosaic.Lib.Affine
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen Cert.LibBlockSum

/-- The class-0 indicator of a label word, as the body forms it: compare with −1, widen the bit, convert. -/
def mu (l : BitVec 32) : EReal := FloatOps.sitofp (F := Ideal) .f32 ((IntOp.cmpi .eq l 4294967295#32).setWidth 32)

/-- The indicator is 1 on the label −1 and 0 on every other label. -/
theorem mu_eq (l : BitVec 32) : mu l = if l = 4294967295#32 then (1 : EReal) else 0 := by
  unfold mu
  show (((BitVec.setWidth 32 (IntOp.cmpi .eq l 4294967295#32)).toInt : ℝ) : EReal) = _
  by_cases h : l = 4294967295#32
  · rw [if_pos h, IntOp.cmpi_eq.2 h]
    norm_num
  · rw [if_neg h]
    have hb : IntOp.cmpi .eq l 4294967295#32 = 0#1 := by
      have h1 : ¬ IntOp.cmpi .eq l 4294967295#32 = 1#1 := fun e => h (IntOp.cmpi_eq.1 e)
      revert h1
      generalize IntOp.cmpi .eq l 4294967295#32 = b
      revert b
      decide
    rw [hb]
    norm_num

/-- A [1, 25000] row times a [25000, 128] block into a zero accumulator, at column `d`: the sum over the rows. -/
theorem mm_apply [Facts₀] (lhs : FVec Ideal S1x25000 .f32) (rhs : FVec Ideal S25000x128 .f32) (d : Fin 128) :
    matmul dot_S1x25000_S25000x128_S1x128_1_0_0_1_n_n none lhs rhs (constant S1x128 .f32 0x00000000#32) (ix2 (0 : Fin 1) d)
      = ∑ k : Fin 25000, lhs (ix2 (0 : Fin 1) k) * rhs (ix2 k d) := by
  show FloatOps.matmul _ none lhs rhs _ (ix2 (0 : Fin 1) d) = _
  rw [Ideal.matmul_constant_zero_apply,
    ← Equiv.sum_comp (contrEquiv1 dot_S1x25000_S25000x128_S1x128_1_0_0_1_n_n 25000 rfl rfl).symm]
  refine Finset.sum_congr rfl fun k _ => ?_
  have hk := contrEquiv1_symm_val dot_S1x25000_S25000x128_S1x128_1_0_0_1_n_n 25000 rfl rfl k
  have l2 : dot_S1x25000_S25000x128_S1x128_1_0_0_1_n_n.lhsIdx (ix2 (0 : Fin 1) d)
      ((contrEquiv1 dot_S1x25000_S25000x128_S1x128_1_0_0_1_n_n 25000 rfl rfl).symm k) = ix2 (0 : Fin 1) k := by
    funext a
    apply Fin.ext
    match a with
    | ⟨0, _⟩ => exact Nat.lt_one_iff.mp (Fin.isLt _)
    | ⟨1, _⟩ => exact (dot_S1x25000_S25000x128_S1x128_1_0_0_1_n_n.lhsIdx_val_of_single rfl (ix2 (0 : Fin 1) d) _).trans hk
  have r2 : dot_S1x25000_S25000x128_S1x128_1_0_0_1_n_n.rhsIdx (ix2 (0 : Fin 1) d)
      ((contrEquiv1 dot_S1x25000_S25000x128_S1x128_1_0_0_1_n_n 25000 rfl rfl).symm k) = ix2 k d := by
    funext a
    apply Fin.ext
    match a with
    | ⟨0, _⟩ => exact (dot_S1x25000_S25000x128_S1x128_1_0_0_1_n_n.rhsIdx_val_of_single rfl (ix2 (0 : Fin 1) d) _).trans hk
    | ⟨1, _⟩ =>
      show (dot_S1x25000_S25000x128_S1x128_1_0_0_1_n_n.rhsIdx (ix2 (0 : Fin 1) d) _ 1).val = d.val
      unfold DotDims.rhsIdx
      rw [dif_neg (show ¬ (1 : Fin 2) ∈ dot_S1x25000_S25000x128_S1x128_1_0_0_1_n_n.rhsBatch from List.not_mem_nil),
        dif_pos (show (1 : Fin 2) ∈ dot_S1x25000_S25000x128_S1x128_1_0_0_1_n_n.rhsNonContracting from List.mem_singleton.mpr rfl)]
      rfl
  rw [l2, r2]

/-- The f32 word of 1.0 is the number 1. -/
theorem one_word : Ideal.ofBits .f32 0x3F800000#32 = (1 : EReal) := by
  simp [Ideal.ofBits, Ideal.ieee]
  rw [← EReal.coe_mul, ← EReal.coe_one, EReal.coe_eq_coe_iff]
  norm_num

/-- The column sums of a block. -/
def colSum (x : FVec Ideal S25000x128 .f32) (d : Fin 128) : EReal := ∑ k : Fin 25000, x (ix2 k d)
/-- The column sums of a block's class-0 rows. -/
def colSum0 (x : FVec Ideal S25000x128 .f32) (l : Vec Ideal S1x1x25000 .i32) (d : Fin 128) : EReal :=
  ∑ k : Fin 25000, mu (l (ix3 (0 : Fin 1) (0 : Fin 1) k)) * x (ix2 k d)
/-- The sum of a block's squared entries. -/
def sqSum (x : FVec Ideal S25000x128 .f32) : EReal := ∑ d : Fin 128, ∑ k : Fin 25000, x (ix2 k d) * x (ix2 k d)
/-- The sum of the squared entries of a block's class-0 rows. -/
def sqSum0 (x : FVec Ideal S25000x128 .f32) (l : Vec Ideal S1x1x25000 .i32) : EReal :=
  ∑ d : Fin 128, ∑ k : Fin 25000, mu (l (ix3 (0 : Fin 1) (0 : Fin 1) k)) * (x (ix2 k d) * x (ix2 k d))
/-- The number of a block's class-0 rows. -/
def cnt0 (l : Vec Ideal S1x1x25000 .i32) : EReal := ∑ k : Fin 25000, mu (l (ix3 (0 : Fin 1) (0 : Fin 1) k))

/-- The class-0 indicator row the body builds from the labels, at position `k`. -/
theorem pay15_apply [Facts₀] (l : Vec Ideal S1x1x25000 .i32) (k : Fin 25000) :
    k0_pay15 (F := Ideal) l (ix2 (0 : Fin 1) k) = mu (l (ix3 (0 : Fin 1) (0 : Fin 1) k)) := by
  unfold k0_pay15 mu
  show FloatOps.sitofp (F := Ideal) .f32 ((IntOp.cmpi .eq (shapeCast S1x25000 l shapeCasts_S1x1x25000_S1x25000 (ix2 (0 : Fin 1) k)) 4294967295#32).setWidth 32) = _
  rw [shapeCast_dropUnit_apply]
  have e : (Fin.cons ⟨0, Nat.one_pos⟩ (ix2 (0 : Fin 1) k) : S1x1x25000.Idx) = ix3 (0 : Fin 1) (0 : Fin 1) k :=
    funext fun a => Fin.ext (by match a with | ⟨0, _⟩ => rfl | ⟨1, _⟩ => rfl | ⟨2, _⟩ => rfl)
  rw [e]

theorem pay17_apply [Facts₀] (x : Vec Ideal S25000x128 .f32) (s : Vec Ideal S1x128 .f32) (d : Fin 128) :
    k0_pay17 (F := Ideal) x s (ix2 (0 : Fin 1) d) = s (ix2 (0 : Fin 1) d) + colSum x d := by
  unfold k0_pay17 k0_pay16 colSum
  rw [shapeCast_self]
  dsimp only
  rw [addf_apply, mm_apply]
  refine congrArg (s (ix2 (0 : Fin 1) d) + ·) (Finset.sum_congr rfl fun k _ => ?_)
  show Ideal.ofBits .f32 0x3F800000#32 * _ = _
  rw [one_word, one_mul]

theorem pay18_apply [Facts₀] (x : Vec Ideal S25000x128 .f32) (l : Vec Ideal S1x1x25000 .i32) (s : Vec Ideal S1x128 .f32) (d : Fin 128) :
    k0_pay18 (F := Ideal) x l s (ix2 (0 : Fin 1) d) = s (ix2 (0 : Fin 1) d) + colSum0 x l d := by
  unfold k0_pay18 colSum0
  rw [shapeCast_self]
  rw [addf_apply, mm_apply]
  refine congrArg (s (ix2 (0 : Fin 1) d) + ·) (Finset.sum_congr rfl fun k _ => ?_)
  rw [pay15_apply]

/-- The lane sum of a [1, 128] row, cast to [1, 1], at its one entry: the sum of the row. -/
theorem laneSum128 [Facts₀] (v : FVec Ideal S1x128 .f32) :
    shapeCast S1x1 (multiReduction .add [1] S1 v 0x00000000#32 reduces_S1x128_S1 (.inl rfl) rfl) shapeCasts_S1_S1x1 (ix2 (0 : Fin 1) (0 : Fin 1))
      = ∑ d : Fin 128, v (ix2 (0 : Fin 1) d) := by
  refine (shapeCast_a_1a_apply _ shapeCasts_S1_S1x1 (0 : Fin 1) (0 : Fin 1)).trans ?_
  refine (Ideal.multiReduction_add_total v 0x00000000#32 reduces_S1x128_S1 (fun b => by match b with | ⟨0, _⟩ => rfl) (.inl rfl) rfl (ix1 (0 : Fin 1))).trans ?_
  rw [sum_idx2, Fin.sum_univ_one]

/-- The lane sum of a [1, 25000] row, cast to [1, 1], at its one entry: the sum of the row. -/
theorem laneSum25000 [Facts₀] (v : FVec Ideal S1x25000 .f32) :
    shapeCast S1x1 (multiReduction .add [1] S1 v 0x00000000#32 reduces_S1x25000_S1 (.inl rfl) rfl) shapeCasts_S1_S1x1 (ix2 (0 : Fin 1) (0 : Fin 1))
      = ∑ k : Fin 25000, v (ix2 (0 : Fin 1) k) := by
  refine (shapeCast_a_1a_apply _ shapeCasts_S1_S1x1 (0 : Fin 1) (0 : Fin 1)).trans ?_
  refine (Ideal.multiReduction_add_total v 0x00000000#32 reduces_S1x25000_S1 (fun b => by match b with | ⟨0, _⟩ => rfl) (.inl rfl) rfl (ix1 (0 : Fin 1))).trans ?_
  rw [sum_idx2, Fin.sum_univ_one]

theorem pay19_apply [Facts₀] (x : Vec Ideal S25000x128 .f32) (s : Vec Ideal S1x1 .f32) :
    k0_pay1 (F := Ideal) (k0_pay19 x s) (ix2 (0 : Fin 1) (0 : Fin 1)) = s (ix2 (0 : Fin 1) (0 : Fin 1)) + sqSum x := by
  unfold k0_pay1 k0_pay19 k0_pay16 k0_pay14 sqSum
  rw [shapeCast_self]
  dsimp only
  rw [addf_apply, laneSum128]
  refine congrArg (s (ix2 (0 : Fin 1) (0 : Fin 1)) + ·) (Finset.sum_congr rfl fun d _ => ?_)
  rw [mm_apply]
  refine Finset.sum_congr rfl fun k _ => ?_
  show Ideal.ofBits .f32 0x3F800000#32 * (x (ix2 k d) * x (ix2 k d)) = _
  rw [one_word, one_mul]

theorem pay2_apply [Facts₀] (x : Vec Ideal S25000x128 .f32) (l : Vec Ideal S1x1x25000 .i32) (s : Vec Ideal S1x1 .f32) :
    k0_pay2 (F := Ideal) (k0_pay14 x) (k0_pay15 l) s (ix2 (0 : Fin 1) (0 : Fin 1)) = s (ix2 (0 : Fin 1) (0 : Fin 1)) + sqSum0 x l := by
  unfold k0_pay2 k0_pay14 sqSum0
  rw [shapeCast_self]
  dsimp only
  rw [addf_apply, laneSum128]
  refine congrArg (s (ix2 (0 : Fin 1) (0 : Fin 1)) + ·) (Finset.sum_congr rfl fun d _ => ?_)
  rw [mm_apply]
  refine Finset.sum_congr rfl fun k _ => ?_
  rw [pay15_apply]
  rfl

theorem pay3_apply [Facts₀] (l : Vec Ideal S1x1x25000 .i32) (s : Vec Ideal S1x1 .f32) :
    k0_pay3 (F := Ideal) (k0_pay15 l) s (ix2 (0 : Fin 1) (0 : Fin 1)) = s (ix2 (0 : Fin 1) (0 : Fin 1)) + cnt0 l := by
  unfold k0_pay3 cnt0
  rw [shapeCast_self]
  dsimp only
  rw [addf_apply, laneSum25000]
  refine congrArg (s (ix2 (0 : Fin 1) (0 : Fin 1)) + ·) (Finset.sum_congr rfl fun k _ => ?_)
  rw [pay15_apply]

/-- The five running sums start at zero. -/
theorem pay9_apply (j : S1x128.Idx) : k0_pay9 (F := Ideal) j = 0 := by
  unfold k0_pay9; rw [shapeCast_self]; exact Ideal.ofBits_zero_f32
theorem pay10_apply (j : S1x128.Idx) : k0_pay10 (F := Ideal) j = 0 := by
  unfold k0_pay10; rw [shapeCast_self]; exact Ideal.ofBits_zero_f32
theorem pay11_apply (j : S1x1.Idx) : k0_pay11 (F := Ideal) j = 0 := by
  unfold k0_pay11; rw [shapeCast_self]; exact Ideal.ofBits_zero_f32
theorem pay12_apply (j : S1x1.Idx) : k0_pay12 (F := Ideal) j = 0 := by
  unfold k0_pay12; rw [shapeCast_self]; exact Ideal.ofBits_zero_f32
theorem pay13_apply (j : S1x1.Idx) : k0_pay13 (F := Ideal) j = 0 := by
  unfold k0_pay13; rw [shapeCast_self]; exact Ideal.ofBits_zero_f32

/-- What the last point of a core's row range hands out: each running sum under one more leading unit axis. -/
theorem pay4_apply [Facts₀] {F : FTy → Type} [FloatOps F] (v : Vec F S1x128 .f32) (d : Fin 128) :
    k0_pay4 v (ix3 (0 : Fin 1) (0 : Fin 1) d) = v (ix2 (0 : Fin 1) d) := by
  unfold k0_pay4
  refine (shapeCast_addUnit_apply ![1, 128] v shapeCasts_S1x128_S1x1x128 (ix3 (0 : Fin 1) (0 : Fin 1) d)).trans (congrArg v ?_)
  funext a
  apply Fin.ext
  match a with
  | ⟨0, _⟩ => rfl
  | ⟨1, _⟩ => rfl

theorem pay5_apply [Facts₀] {F : FTy → Type} [FloatOps F] (v : Vec F S1x128 .f32) (d : Fin 128) :
    k0_pay5 v (ix3 (0 : Fin 1) (0 : Fin 1) d) = v (ix2 (0 : Fin 1) d) := by
  unfold k0_pay5
  refine (shapeCast_addUnit_apply ![1, 128] v shapeCasts_S1x128_S1x1x128 (ix3 (0 : Fin 1) (0 : Fin 1) d)).trans (congrArg v ?_)
  funext a
  apply Fin.ext
  match a with
  | ⟨0, _⟩ => rfl
  | ⟨1, _⟩ => rfl

theorem cast11 [Facts₀] {F : FTy → Type} [FloatOps F] (v : Vec F S1x1 .f32) :
    shapeCast S1x1x1 v shapeCasts_S1x1_S1x1x1 (ix3 (0 : Fin 1) (0 : Fin 1) (0 : Fin 1)) = v (ix2 (0 : Fin 1) (0 : Fin 1)) := by
  refine (shapeCast_addUnit_apply ![1, 1] v shapeCasts_S1x1_S1x1x1 (ix3 (0 : Fin 1) (0 : Fin 1) (0 : Fin 1))).trans (congrArg v ?_)
  funext a
  apply Fin.ext
  match a with
  | ⟨0, _⟩ => rfl
  | ⟨1, _⟩ => rfl

theorem pay6_apply [Facts₀] {F : FTy → Type} [FloatOps F] (v : Vec F S1x1 .f32) :
    k0_pay6 v (ix3 (0 : Fin 1) (0 : Fin 1) (0 : Fin 1)) = v (ix2 (0 : Fin 1) (0 : Fin 1)) := by
  unfold k0_pay6; exact cast11 v
theorem pay7_apply [Facts₀] {F : FTy → Type} [FloatOps F] (v : Vec F S1x1 .f32) :
    k0_pay7 v (ix3 (0 : Fin 1) (0 : Fin 1) (0 : Fin 1)) = v (ix2 (0 : Fin 1) (0 : Fin 1)) := by
  unfold k0_pay7; exact cast11 v
theorem pay8_apply [Facts₀] {F : FTy → Type} [FloatOps F] (v : Vec F S1x1 .f32) :
    k0_pay8 v (ix3 (0 : Fin 1) (0 : Fin 1) (0 : Fin 1)) = v (ix2 (0 : Fin 1) (0 : Fin 1)) := by
  unfold k0_pay8; exact cast11 v

end Cert.KernelIdeal.Pay

end
-- ==== Proof.KValue.lean ====
/-
  The kernel's result at the exact values.

  Point t of the grid sees rows t·25000 … t·25000 + 24999 of the data and their labels (the label array is the
  200000 labels cut into 8 rows of 25000).  After a core's fourth point its row of each result array holds the sum of
  the four points' block statistics; the host adds the two cores' rows, which gives the sums over all eight blocks,
  that is over all 200000 rows; and the closing arithmetic forms the ratio from those five sums.
-/
import proofs.«116562_j1151051235756_2_alg».proof.Proof.KRun
import proofs.«116562_j1151051235756_2_alg».proof.Proof.KPay

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.GenP Cert.KernelIdeal.Chain Cert.KernelIdeal.Pay Cert.KernelIdeal.Tail Cert.LibBlockSum

variable (m : (ℓ : Loc nD τ sig) → Buf (Elt Ideal) ℓ)

/-- The printed index maps over the grid: the data window moves one block of rows per point, the label window one
    row of the cut label array per point. -/
theorem idx_in : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

theorem h8 : 8 * 25000 = 200000 := by norm_num

/-- Point `t` as a block number. -/
def blk (t : Fin cfg0.N) : Fin 8 := ⟨t.val, lt_of_lt_of_eq t.isLt Chain.hN⟩

/-- The data block at point `t`, read at an entry: row `k` of block `t` is row `t·25000 + k`. -/
theorem iblk0_apply (c : Dev nD) (x : FVec Ideal S200000x128 .f32) (hx : m ((c : Thread nD τ).loc main_arg0) = x) (t : Fin cfg0.N) (k : Fin 25000) (d : Fin 128) :
    (iblk m c 0 t : Vec Ideal S25000x128 .f32) (ix2 k d) = x (ix2 (blockIdx h8 (blk t) k) d) := by
  subst hx
  obtain ⟨h0, h1, -, -, -⟩ := idx_in t
  unfold iblk
  rw [View.read_apply]
  show V m c main_arg0 _ = _
  rw [V_main_arg0]
  congr 1
  funext a
  apply Fin.ext
  match a with
  | ⟨0, _⟩ => show win0_0.index t (0 : Fin 2) * 25000 + 1 * k.val = t.val * 25000 + k.val; rw [h0]; omega
  | ⟨1, _⟩ => show win0_0.index t (1 : Fin 2) * 128 + 1 * d.val = d.val; rw [h1]; omega

/-- The label array the kernel is given: the labels cut into 8 rows of 25000. -/
theorem V_main_v0 (c : Dev nD) :
    (V m c main_v0 : S8x1x25000.Idx → BitVec 32) = shapeCast S8x1x25000 (m ((c : Thread nD τ).loc main_arg1)) shapeCasts_S200000_S8x1x25000 := by
  dsimp only [V, V0]
  simp only [hostOps0, List.flatten_cons, List.flatten_nil, List.append_nil, List.cons_append, List.nil_append]
  after_results
  rfl

/-- The label block at point `t`, read at an entry. -/
theorem iblk1_apply (c : Dev nD) (l : IVec S200000 32) (hl : m ((c : Thread nD τ).loc main_arg1) = l) (t : Fin cfg0.N) (k : Fin 25000) :
    (iblk m c 1 t : Vec Ideal S1x1x25000 .i32) (ix3 (0 : Fin 1) (0 : Fin 1) k) = l (ix1 (blockIdx h8 (blk t) k)) := by
  subst hl
  obtain ⟨-, -, h0, h1, h2⟩ := idx_in t
  unfold iblk
  rw [View.read_apply]
  show V m c main_v0 _ = _
  rw [V_main_v0]
  refine shapeCast_apply _ _ _ _ ?_
  show (S200000.rowMajor (ix1 (blockIdx h8 (blk t) k))).val = (S8x1x25000.rowMajor (((cfg0.win 1).blk t).view.emb (ix3 (0 : Fin 1) (0 : Fin 1) k))).val
  rw [Shape.rowMajor_val_one, Shape.rowMajor_val_three]
  show t.val * 25000 + k.val = ((win0_1.index t (0 : Fin 3) * 1 + 1 * 0) * 1 + (win0_1.index t (1 : Fin 3) * 1 + 1 * 0)) * 25000 + (win0_1.index t (2 : Fin 3) * 25000 + 1 * k.val)
  rw [h0, h1, h2]
  omega

/-! ## The accumulators after a core's fourth point -/

/-- The data block and the label block at point `k`, for any natural number `k` (zero past the grid). -/
def bx (c : Dev nD) (k : ℕ) : Vec Ideal S25000x128 .f32 := if h : k < cfg0.N then iblk m c 0 ⟨k, h⟩ else fun _ => 0
def bl (c : Dev nD) (k : ℕ) : Vec Ideal S1x1x25000 .i32 := if h : k < cfg0.N then iblk m c 1 ⟨k, h⟩ else fun _ => 0

/-- After the fourth point of the core that starts at point `n`: four updates of the cleared accumulators. -/
theorem sc4 (c : Dev nD) (n : ℕ) (h0 : n % 4 = 0) (h : n + 3 < cfg0.N) :
    scN m c (n + 3) = upd (bx m c (n + 3)) (bl m c (n + 3)) (upd (bx m c (n + 2)) (bl m c (n + 2))
      (upd (bx m c (n + 1)) (bl m c (n + 1)) (upd (bx m c n) (bl m c n) init))) := by
  have hN := Chain.hN
  have b0 : n < cfg0.N := by omega
  have b1 : n + 1 < cfg0.N := by omega
  have b2 : n + 2 < cfg0.N := by omega
  have e3 : sc m c (n + 3) h = upd (iblk m c 0 ⟨n + 3, h⟩) (iblk m c 1 ⟨n + 3, h⟩) (sc m c (n + 2) b2) :=
    sc_step m c (n + 2) h (by omega)
  have e2 : sc m c (n + 2) b2 = upd (iblk m c 0 ⟨n + 2, b2⟩) (iblk m c 1 ⟨n + 2, b2⟩) (sc m c (n + 1) b1) :=
    sc_step m c (n + 1) b2 (by omega)
  have e1 : sc m c (n + 1) b1 = upd (iblk m c 0 ⟨n + 1, b1⟩) (iblk m c 1 ⟨n + 1, b1⟩) (sc m c n b0) :=
    sc_step m c n b1 (by omega)
  rw [scN_of_lt m c (n + 3) h, e3, e2, e1, sc_start m c n b0 h0]
  unfold bx bl
  rw [dif_pos h, dif_pos h, dif_pos b2, dif_pos b2, dif_pos b1, dif_pos b1, dif_pos b0, dif_pos b0]

/-- Four terms added to zero, in order. -/
def chain4 (f : ℕ → EReal) (n : ℕ) : EReal := (((0 + f n) + f (n + 1)) + f (n + 2)) + f (n + 3)

theorem acc0_val (c : Dev nD) (n : ℕ) (h0 : n % 4 = 0) (h : n + 3 < cfg0.N) (d : Fin 128) :
    (scN m c (n + 3)).1 (ix2 (0 : Fin 1) d) = chain4 (fun k => colSum (bx m c k) d) n := by
  rw [sc4 m c n h0 h]
  simp only [upd, init, pay17_apply, pay9_apply, chain4]

theorem acc1_val (c : Dev nD) (n : ℕ) (h0 : n % 4 = 0) (h : n + 3 < cfg0.N) (d : Fin 128) :
    (scN m c (n + 3)).2.1 (ix2 (0 : Fin 1) d) = chain4 (fun k => colSum0 (bx m c k) (bl m c k) d) n := by
  rw [sc4 m c n h0 h]
  simp only [upd, init, pay18_apply, pay10_apply, chain4]

theorem acc2_val (c : Dev nD) (n : ℕ) (h0 : n % 4 = 0) (h : n + 3 < cfg0.N) :
    (scN m c (n + 3)).2.2.1 (ix2 (0 : Fin 1) (0 : Fin 1)) = chain4 (fun k => sqSum (bx m c k)) n := by
  rw [sc4 m c n h0 h]
  simp only [upd, init, pay19_apply, pay11_apply, chain4]

theorem acc3_val (c : Dev nD) (n : ℕ) (h0 : n % 4 = 0) (h : n + 3 < cfg0.N) :
    (scN m c (n + 3)).2.2.2.1 (ix2 (0 : Fin 1) (0 : Fin 1)) = chain4 (fun k => sqSum0 (bx m c k) (bl m c k)) n := by
  rw [sc4 m c n h0 h]
  simp only [upd, init, pay2_apply, pay12_apply, chain4]

theorem acc4_val (c : Dev nD) (n : ℕ) (h0 : n % 4 = 0) (h : n + 3 < cfg0.N) :
    (scN m c (n + 3)).2.2.2.2 (ix2 (0 : Fin 1) (0 : Fin 1)) = chain4 (fun k => cnt0 (bl m c k)) n := by
  rw [sc4 m c n h0 h]
  simp only [upd, init, pay3_apply, pay13_apply, chain4]

/-- The two cores' chains together are the sum over the eight points. -/
theorem two_cores (f : ℕ → EReal) : chain4 f 0 + chain4 f 4 = ∑ t : Fin 8, f t.val := by
  rw [Fin.sum_univ_eq_sum_range (fun k => f k) 8]
  simp only [chain4, Finset.sum_range_succ, Finset.sum_range_zero, zero_add, Nat.reduceAdd, add_assoc]

theorem lt8 (t : Fin 8) : t.val < cfg0.N := by rw [Chain.hN]; exact t.isLt
theorem blk_mk (t : Fin 8) : blk ⟨t.val, lt8 t⟩ = t := Fin.ext rfl

/-! ## The five sums over all rows -/

theorem sum_col (c : Dev nD) (x : FVec Ideal S200000x128 .f32) (hx : m ((c : Thread nD τ).loc main_arg0) = x) (d : Fin 128) :
    ∑ t : Fin 8, colSum (bx m c t.val) d = ∑ r : Fin 200000, x (ix2 r d) := by
  rw [sum_blocks h8]
  refine Finset.sum_congr rfl fun t _ => ?_
  unfold bx colSum
  rw [dif_pos (lt8 t)]
  refine Finset.sum_congr rfl fun k _ => ?_
  rw [iblk0_apply m c x hx, blk_mk]

theorem sum_col0 (c : Dev nD) (x : FVec Ideal S200000x128 .f32) (hx : m ((c : Thread nD τ).loc main_arg0) = x) (l : IVec S200000 32) (hl : m ((c : Thread nD τ).loc main_arg1) = l) (d : Fin 128) :
    ∑ t : Fin 8, colSum0 (bx m c t.val) (bl m c t.val) d
      = ∑ r : Fin 200000, mu (l (ix1 r)) * x (ix2 r d) := by
  rw [sum_blocks h8]
  refine Finset.sum_congr rfl fun t _ => ?_
  unfold bx bl colSum0
  rw [dif_pos (lt8 t), dif_pos (lt8 t)]
  refine Finset.sum_congr rfl fun k _ => ?_
  rw [iblk0_apply m c x hx, iblk1_apply m c l hl, blk_mk]

theorem sum_sq (c : Dev nD) (x : FVec Ideal S200000x128 .f32) (hx : m ((c : Thread nD τ).loc main_arg0) = x) :
    ∑ t : Fin 8, sqSum (bx m c t.val)
      = ∑ r : Fin 200000, ∑ d : Fin 128, x (ix2 r d) * x (ix2 r d) := by
  rw [sum_blocks h8]
  refine Finset.sum_congr rfl fun t _ => ?_
  unfold bx sqSum
  rw [dif_pos (lt8 t), Finset.sum_comm]
  refine Finset.sum_congr rfl fun k _ => Finset.sum_congr rfl fun d _ => ?_
  rw [iblk0_apply m c x hx, blk_mk]

theorem sum_sq0 (c : Dev nD) (x : FVec Ideal S200000x128 .f32) (hx : m ((c : Thread nD τ).loc main_arg0) = x) (l : IVec S200000 32) (hl : m ((c : Thread nD τ).loc main_arg1) = l) :
    ∑ t : Fin 8, sqSum0 (bx m c t.val) (bl m c t.val)
      = ∑ r : Fin 200000, ∑ d : Fin 128, mu (l (ix1 r))
          * (x (ix2 r d) * x (ix2 r d)) := by
  rw [sum_blocks h8]
  refine Finset.sum_congr rfl fun t _ => ?_
  unfold bx bl sqSum0
  rw [dif_pos (lt8 t), dif_pos (lt8 t), Finset.sum_comm]
  refine Finset.sum_congr rfl fun k _ => Finset.sum_congr rfl fun d _ => ?_
  rw [iblk0_apply m c x hx, iblk1_apply m c l hl, blk_mk]

theorem sum_cnt (c : Dev nD) (l : IVec S200000 32) (hl : m ((c : Thread nD τ).loc main_arg1) = l) :
    ∑ t : Fin 8, cnt0 (bl m c t.val) = ∑ r : Fin 200000, mu (l (ix1 r)) := by
  rw [sum_blocks h8]
  refine Finset.sum_congr rfl fun t _ => ?_
  unfold bl cnt0
  rw [dif_pos (lt8 t)]
  refine Finset.sum_congr rfl fun k _ => ?_
  rw [iblk1_apply m c l hl, blk_mk]

/-! ## The result arrays' rows, and the program's result -/

theorem b3 (p : Fin 2) : 4 * p.val + 3 < cfg0.N := by rw [Chain.hN]; have := p.isLt; omega

theorem G2_val (c : Dev nD) (p : Fin 2) (d : Fin 128) :
    G2 m c (ix3 p (0 : Fin 1) d) = chain4 (fun k => colSum (bx m c k) d) (4 * p.val) := by
  unfold G2
  show k0_pay4 (scN m c (4 * p.val + 3)).1 (ix3 (0 : Fin 1) (0 : Fin 1) d) = _
  rw [pay4_apply]
  exact acc0_val m c (4 * p.val) (by omega) (b3 p) d

theorem G3_val (c : Dev nD) (p : Fin 2) (d : Fin 128) :
    G3 m c (ix3 p (0 : Fin 1) d) = chain4 (fun k => colSum0 (bx m c k) (bl m c k) d) (4 * p.val) := by
  unfold G3
  show k0_pay5 (scN m c (4 * p.val + 3)).2.1 (ix3 (0 : Fin 1) (0 : Fin 1) d) = _
  rw [pay5_apply]
  exact acc1_val m c (4 * p.val) (by omega) (b3 p) d

theorem G4_val (c : Dev nD) (p : Fin 2) :
    G4 m c (ix3 p (0 : Fin 1) (0 : Fin 1)) = chain4 (fun k => sqSum (bx m c k)) (4 * p.val) := by
  unfold G4
  show k0_pay6 (scN m c (4 * p.val + 3)).2.2.1 (ix3 (0 : Fin 1) (0 : Fin 1) (0 : Fin 1)) = _
  rw [pay6_apply]
  exact acc2_val m c (4 * p.val) (by omega) (b3 p)

theorem G5_val (c : Dev nD) (p : Fin 2) :
    G5 m c (ix3 p (0 : Fin 1) (0 : Fin 1)) = chain4 (fun k => sqSum0 (bx m c k) (bl m c k)) (4 * p.val) := by
  unfold G5
  show k0_pay7 (scN m c (4 * p.val + 3)).2.2.2.1 (ix3 (0 : Fin 1) (0 : Fin 1) (0 : Fin 1)) = _
  rw [pay7_apply]
  exact acc3_val m c (4 * p.val) (by omega) (b3 p)

theorem G6_val (c : Dev nD) (p : Fin 2) :
    G6 m c (ix3 p (0 : Fin 1) (0 : Fin 1)) = chain4 (fun k => cnt0 (bl m c k)) (4 * p.val) := by
  unfold G6
  show k0_pay8 (scN m c (4 * p.val + 3)).2.2.2.2 (ix3 (0 : Fin 1) (0 : Fin 1) (0 : Fin 1)) = _
  rw [pay8_apply]
  exact acc4_val m c (4 * p.val) (by omega) (b3 p)

/-- THE KERNEL'S RESULT AT THE EXACT VALUES: the ratio from the five sums over all 200000 rows. -/
theorem result_eq (c : Dev nD) (x : FVec Ideal S200000x128 .f32) (hx : m ((c : Thread nD τ).loc main_arg0) = x) (l : IVec S200000 32) (hl : m ((c : Thread nD τ).loc main_arg1) = l) (j : S_.Idx) :
    Chain.result m c j = Cert.Fisher.ratioOfStats (δ := Fin 128) (Ideal.ofBits .f32 0x48435000#32)
      (fun d => ∑ r : Fin 200000, x (ix2 r d))
      (fun d => ∑ r : Fin 200000, mu (l (ix1 r)) * x (ix2 r d))
      (∑ r : Fin 200000, ∑ d : Fin 128, x (ix2 r d) * x (ix2 r d))
      (∑ r : Fin 200000, ∑ d : Fin 128, mu (l (ix1 r))
          * (x (ix2 r d) * x (ix2 r d)))
      (∑ r : Fin 200000, mu (l (ix1 r))) := by
  have key : ∀ (a0 a1 : FVec Ideal S2x1x128 .f32) (a2 a3 a4 : FVec Ideal S2x1x1 .f32),
      (∀ (p : Fin 2) (d : Fin 128), a0 (ix3 p (0 : Fin 1) d) = chain4 (fun k => colSum (bx m c k) d) (4 * p.val)) →
      (∀ (p : Fin 2) (d : Fin 128), a1 (ix3 p (0 : Fin 1) d) = chain4 (fun k => colSum0 (bx m c k) (bl m c k) d) (4 * p.val)) →
      (∀ p : Fin 2, a2 (ix3 p (0 : Fin 1) (0 : Fin 1)) = chain4 (fun k => sqSum (bx m c k)) (4 * p.val)) →
      (∀ p : Fin 2, a3 (ix3 p (0 : Fin 1) (0 : Fin 1)) = chain4 (fun k => sqSum0 (bx m c k) (bl m c k)) (4 * p.val)) →
      (∀ p : Fin 2, a4 (ix3 p (0 : Fin 1) (0 : Fin 1)) = chain4 (fun k => cnt0 (bl m c k)) (4 * p.val)) →
      tail (F := Ideal) a0 a1 a2 a3 a4 j = Cert.Fisher.ratioOfStats (δ := Fin 128) (Ideal.ofBits .f32 0x48435000#32)
        (fun d => ∑ r : Fin 200000, x (ix2 r d))
        (fun d => ∑ r : Fin 200000, mu (l (ix1 r)) * x (ix2 r d))
        (∑ r : Fin 200000, ∑ d : Fin 128, x (ix2 r d) * x (ix2 r d))
        (∑ r : Fin 200000, ∑ d : Fin 128, mu (l (ix1 r)) * (x (ix2 r d) * x (ix2 r d)))
        (∑ r : Fin 200000, mu (l (ix1 r))) := by
    intro a0 a1 a2 a3 a4 v0 v1 v2 v3 v4
    rw [tail_apply]
    have e0 : ∀ d : Fin 128, a0 (ix3 (0 : Fin 2) (0 : Fin 1) d) + a0 (ix3 (1 : Fin 2) (0 : Fin 1) d)
        = ∑ r : Fin 200000, x (ix2 r d) := fun d => by
      rw [v0, v0, ← sum_col m c x hx]; exact two_cores _
    have e1 : ∀ d : Fin 128, a1 (ix3 (0 : Fin 2) (0 : Fin 1) d) + a1 (ix3 (1 : Fin 2) (0 : Fin 1) d)
        = ∑ r : Fin 200000, mu (l (ix1 r)) * x (ix2 r d) := fun d => by
      rw [v1, v1, ← sum_col0 m c x hx l hl]; exact two_cores _
    have e2 : a2 (ix3 (0 : Fin 2) (0 : Fin 1) (0 : Fin 1)) + a2 (ix3 (1 : Fin 2) (0 : Fin 1) (0 : Fin 1))
        = ∑ r : Fin 200000, ∑ d : Fin 128, x (ix2 r d) * x (ix2 r d) := by
      rw [v2, v2]; exact (two_cores _).trans (sum_sq m c x hx)
    have e3 : a3 (ix3 (0 : Fin 2) (0 : Fin 1) (0 : Fin 1)) + a3 (ix3 (1 : Fin 2) (0 : Fin 1) (0 : Fin 1))
        = ∑ r : Fin 200000, ∑ d : Fin 128, mu (l (ix1 r)) * (x (ix2 r d) * x (ix2 r d)) := by
      rw [v3, v3]; exact (two_cores _).trans (sum_sq0 m c x hx l hl)
    have e4 : a4 (ix3 (0 : Fin 2) (0 : Fin 1) (0 : Fin 1)) + a4 (ix3 (1 : Fin 2) (0 : Fin 1) (0 : Fin 1))
        = ∑ r : Fin 200000, mu (l (ix1 r)) := by
      rw [v4, v4]; exact (two_cores _).trans (sum_cnt m c l hl)
    simp only [e0, e1]
    rw [e2, e3, e4]
  exact key (G2 m c) (G3 m c) (G4 m c) (G5 m c) (G6 m c) (G2_val m c) (G3_val m c) (G4_val m c) (G5_val m c) (G6_val m c)

end Cert.KernelIdeal.KValue

end
-- ==== Proof.RefValue.lean ====
/-
  The reference program's result is the two-pass Fisher ratio of the spec module.

  The program forms the two class masks (label = -1, label = 1) as reals 0 / 1, the class sizes as the sums of
  the masks, the class means as the masked column sums over the sizes, the within-class scatters as the masked
  sums of the centred squares, the overall mean as the column sums over the row count, the total scatter as
  the sum of the centred squares, and returns  Sw / (St - Sw).  Each stage is read at an index and its finite
  sums are re-indexed by the coordinates (row, column).
-/
import proofs.«116562_j1151051235756_2_alg».proof.Proof.Gen.ReferenceIdeal.Read
import proofs.«116562_j1151051235756_2_alg».proof.Proof.FisherSpec
import proofs.«116562_j1151051235756_2_alg».proof.Proof.LibBlockSum
import Idealize.ShloMosaic.Lib.ValueIdx
import Idealize.ShloMosaic.PureOps.Ideal.Laws

noncomputable section

open scoped BigOperators

namespace Cert.RefValue

open Cert.ReferenceIdeal Cert.ReferenceIdeal.Read Idealize.ShloMosaic Idealize.ShloMosaic.ValueIdx

/-- the class mask as a real number -/
def cls (v l : BitVec 32) : ℝ := if l = v then 1 else 0

/-- The comparison bit, converted, is the class mask. -/
theorem mask_eq (v l : BitVec 32) :
    FloatOps.uitofp (F := Ideal) .f32 (IntOp.cmpi .eq l v) = ((cls v l : ℝ) : EReal) := by
  show (((IntOp.cmpi .eq l v).toNat : ℝ) : EReal) = ((cls v l : ℝ) : EReal)
  refine congrArg (fun t : ℝ => (t : EReal)) ?_
  unfold cls IntOp.cmpi
  by_cases h : l = v
  · subst h; simp
  · have hb : (l == v) = false := by simpa using h
    simp [hb, h]

/-! ## Class 0 (label -1) -/

/-- The column mask of class 0, at row `r`: 1 when the row's label is -1, else 0. -/
theorem mask0_col (x1 : IVec S200000 32) (r : Fin 200000) (c : Fin 1) :
    val_main_v3 (F := Ideal) x1 (ix2 r c) = ((cls 4294967295#32 (x1 (ix1 r)) : ℝ) : EReal) := by
  rw [val_main_v3_apply, val_main_v2_apply, val_main_v1_apply, val_main_v0_apply, val_main_c_apply, mask_eq]
  have e : idx_main_v3 (ix2 r c) = ix1 r := funext fun a => Fin.ext (by match a with | ⟨0, _⟩ => rfl)
  rw [e]

/-- The size of class 0 is the sum of its mask over the rows. -/
theorem n0_eq (x1 : IVec S200000 32) (i : S_.Idx) :
    val_main_v8 (F := Ideal) x1 i = ∑ r : Fin 200000, ((cls 4294967295#32 (x1 (ix1 r)) : ℝ) : EReal) := by
  rw [val_main_v8_apply, val_main_cst_apply, Ideal.ofBits_def, Ideal.ofBits_zero_f32, zero_add]
  refine (sum_idx2 _).trans (Finset.sum_congr rfl fun r _ => ?_)
  rw [Fin.sum_univ_one]
  exact mask0_col x1 r 0

/-- The mask of class 0 spread over the columns (for the masked column sums). -/
theorem mask0_mat (x1 : IVec S200000 32) (r : Fin 200000) (d : Fin 128) :
    val_main_v10 (F := Ideal) x1 (ix2 r d) = ((cls 4294967295#32 (x1 (ix1 r)) : ℝ) : EReal) := by
  rw [val_main_v10_apply]
  have e : idx_main_v10 (ix2 r d) = ix2 r (0 : Fin 1) := funext fun a => Fin.ext (by match a with | ⟨0, _⟩ => rfl | ⟨1, _⟩ => rfl)
  rw [e]
  exact mask0_col x1 r 0

/-- The same spread mask, as the scatter's weight. -/
theorem mask0_mat' (x1 : IVec S200000 32) (r : Fin 200000) (d : Fin 128) :
    val_main_v24 (F := Ideal) x1 (ix2 r d) = ((cls 4294967295#32 (x1 (ix1 r)) : ℝ) : EReal) := by
  rw [val_main_v24_apply]
  have e : idx_main_v24 (ix2 r d) = ix2 r (0 : Fin 1) := funext fun a => Fin.ext (by match a with | ⟨0, _⟩ => rfl | ⟨1, _⟩ => rfl)
  rw [e]
  exact mask0_col x1 r 0

/-- The mean of class 0 in column `d`: the masked column sum over the class size. -/
theorem mean0_eq (x0 : FVec Ideal S200000x128 .f32) (x1 : IVec S200000 32) (d : Fin 128) :
    val_main_v14 (F := Ideal) x0 x1 (ix1 d) = Ideal.div (∑ r : Fin 200000, x0 (ix2 r d) * ((cls 4294967295#32 (x1 (ix1 r)) : ℝ) : EReal)) (∑ r : Fin 200000, ((cls 4294967295#32 (x1 (ix1 r)) : ℝ) : EReal)) := by
  rw [val_main_v14_apply, Ideal.hostDivf_def, val_main_v12_apply, val_main_v13_apply, n0_eq,
    val_main_cst_2_apply, Ideal.ofBits_def, Ideal.ofBits_zero_f32, zero_add]
  refine congrArg₂ Ideal.div (Finset.sum_congr rfl fun r _ => ?_) rfl
  have e : idx_main_v12 (ix1 d) r = ix2 r d := funext fun a => Fin.ext (by match a with | ⟨0, _⟩ => rfl | ⟨1, _⟩ => rfl)
  rw [e, val_main_v11_apply, Ideal.mulf_def, mask0_mat]

/-- An entry centred at its column's class-0 mean. -/
theorem cent0_eq (x0 : FVec Ideal S200000x128 .f32) (x1 : IVec S200000 32) (r : Fin 200000) (d : Fin 128) :
    val_main_v22 (F := Ideal) x0 x1 (ix2 r d) = x0 (ix2 r d) - Ideal.div (∑ r : Fin 200000, x0 (ix2 r d) * ((cls 4294967295#32 (x1 (ix1 r)) : ℝ) : EReal)) (∑ r : Fin 200000, ((cls 4294967295#32 (x1 (ix1 r)) : ℝ) : EReal)) := by
  rw [val_main_v22_apply, Ideal.subf_def, val_main_v21_apply, val_main_v20_apply]
  have e : idx_main_v20 (idx_main_v21 (ix2 r d)) = ix1 d := funext fun a => Fin.ext (by match a with | ⟨0, _⟩ => rfl)
  rw [e, mean0_eq]

/-- The within-class scatter of class 0: the masked sum of the centred squares. -/
theorem sw0_eq (x0 : FVec Ideal S200000x128 .f32) (x1 : IVec S200000 32) (i : S_.Idx) :
    val_main_v26 (F := Ideal) x0 x1 i
      = ∑ r : Fin 200000, ∑ d : Fin 128, ((cls 4294967295#32 (x1 (ix1 r)) : ℝ) : EReal) * ((x0 (ix2 r d) - Ideal.div (∑ r : Fin 200000, x0 (ix2 r d) * ((cls 4294967295#32 (x1 (ix1 r)) : ℝ) : EReal)) (∑ r : Fin 200000, ((cls 4294967295#32 (x1 (ix1 r)) : ℝ) : EReal))) * (x0 (ix2 r d) - Ideal.div (∑ r : Fin 200000, x0 (ix2 r d) * ((cls 4294967295#32 (x1 (ix1 r)) : ℝ) : EReal)) (∑ r : Fin 200000, ((cls 4294967295#32 (x1 (ix1 r)) : ℝ) : EReal)))) := by
  rw [val_main_v26_apply, val_main_cst_4_apply, Ideal.ofBits_def, Ideal.ofBits_zero_f32, zero_add]
  refine (sum_idx2 _).trans (Finset.sum_congr rfl fun r _ => Finset.sum_congr rfl fun d _ => ?_)
  rw [val_main_v25_apply, Ideal.mulf_def, val_main_v23_apply, Ideal.mulf_def, mask0_mat', cent0_eq]

/-! ## Class 1 (label 1) -/

/-- The column mask of class 1, at row `r`: 1 when the row's label is 1, else 0. -/
theorem mask1_col (x1 : IVec S200000 32) (r : Fin 200000) (c : Fin 1) :
    val_main_v7 (F := Ideal) x1 (ix2 r c) = ((cls 1#32 (x1 (ix1 r)) : ℝ) : EReal) := by
  rw [val_main_v7_apply, val_main_v6_apply, val_main_v5_apply, val_main_v4_apply, val_main_c_0_apply, mask_eq]
  have e : idx_main_v7 (ix2 r c) = ix1 r := funext fun a => Fin.ext (by match a with | ⟨0, _⟩ => rfl)
  rw [e]

/-- The size of class 1 is the sum of its mask over the rows. -/
theorem n1_eq (x1 : IVec S200000 32) (i : S_.Idx) :
    val_main_v9 (F := Ideal) x1 i = ∑ r : Fin 200000, ((cls 1#32 (x1 (ix1 r)) : ℝ) : EReal) := by
  rw [val_main_v9_apply, val_main_cst_1_apply, Ideal.ofBits_def, Ideal.ofBits_zero_f32, zero_add]
  refine (sum_idx2 _).trans (Finset.sum_congr rfl fun r _ => ?_)
  rw [Fin.sum_univ_one]
  exact mask1_col x1 r 0

/-- The mask of class 1 spread over the columns (for the masked column sums). -/
theorem mask1_mat (x1 : IVec S200000 32) (r : Fin 200000) (d : Fin 128) :
    val_main_v15 (F := Ideal) x1 (ix2 r d) = ((cls 1#32 (x1 (ix1 r)) : ℝ) : EReal) := by
  rw [val_main_v15_apply]
  have e : idx_main_v15 (ix2 r d) = ix2 r (0 : Fin 1) := funext fun a => Fin.ext (by match a with | ⟨0, _⟩ => rfl | ⟨1, _⟩ => rfl)
  rw [e]
  exact mask1_col x1 r 0

/-- The same spread mask, as the scatter's weight. -/
theorem mask1_mat' (x1 : IVec S200000 32) (r : Fin 200000) (d : Fin 128) :
    val_main_v31 (F := Ideal) x1 (ix2 r d) = ((cls 1#32 (x1 (ix1 r)) : ℝ) : EReal) := by
  rw [val_main_v31_apply]
  have e : idx_main_v31 (ix2 r d) = ix2 r (0 : Fin 1) := funext fun a => Fin.ext (by match a with | ⟨0, _⟩ => rfl | ⟨1, _⟩ => rfl)
  rw [e]
  exact mask1_col x1 r 0

/-- The mean of class 1 in column `d`: the masked column sum over the class size. -/
theorem mean1_eq (x0 : FVec Ideal S200000x128 .f32) (x1 : IVec S200000 32) (d : Fin 128) :
    val_main_v19 (F := Ideal) x0 x1 (ix1 d) = Ideal.div (∑ r : Fin 200000, x0 (ix2 r d) * ((cls 1#32 (x1 (ix1 r)) : ℝ) : EReal)) (∑ r : Fin 200000, ((cls 1#32 (x1 (ix1 r)) : ℝ) : EReal)) := by
  rw [val_main_v19_apply, Ideal.hostDivf_def, val_main_v17_apply, val_main_v18_apply, n1_eq,
    val_main_cst_3_apply, Ideal.ofBits_def, Ideal.ofBits_zero_f32, zero_add]
  refine congrArg₂ Ideal.div (Finset.sum_congr rfl fun r _ => ?_) rfl
  have e : idx_main_v17 (ix1 d) r = ix2 r d := funext fun a => Fin.ext (by match a with | ⟨0, _⟩ => rfl | ⟨1, _⟩ => rfl)
  rw [e, val_main_v16_apply, Ideal.mulf_def, mask1_mat]

/-- An entry centred at its column's class-1 mean. -/
theorem cent1_eq (x0 : FVec Ideal S200000x128 .f32) (x1 : IVec S200000 32) (r : Fin 200000) (d : Fin 128) :
    val_main_v29 (F := Ideal) x0 x1 (ix2 r d) = x0 (ix2 r d) - Ideal.div (∑ r : Fin 200000, x0 (ix2 r d) * ((cls 1#32 (x1 (ix1 r)) : ℝ) : EReal)) (∑ r : Fin 200000, ((cls 1#32 (x1 (ix1 r)) : ℝ) : EReal)) := by
  rw [val_main_v29_apply, Ideal.subf_def, val_main_v28_apply, val_main_v27_apply]
  have e : idx_main_v27 (idx_main_v28 (ix2 r d)) = ix1 d := funext fun a => Fin.ext (by match a with | ⟨0, _⟩ => rfl)
  rw [e, mean1_eq]

/-- The within-class scatter of class 1: the masked sum of the centred squares. -/
theorem sw1_eq (x0 : FVec Ideal S200000x128 .f32) (x1 : IVec S200000 32) (i : S_.Idx) :
    val_main_v33 (F := Ideal) x0 x1 i
      = ∑ r : Fin 200000, ∑ d : Fin 128, ((cls 1#32 (x1 (ix1 r)) : ℝ) : EReal) * ((x0 (ix2 r d) - Ideal.div (∑ r : Fin 200000, x0 (ix2 r d) * ((cls 1#32 (x1 (ix1 r)) : ℝ) : EReal)) (∑ r : Fin 200000, ((cls 1#32 (x1 (ix1 r)) : ℝ) : EReal))) * (x0 (ix2 r d) - Ideal.div (∑ r : Fin 200000, x0 (ix2 r d) * ((cls 1#32 (x1 (ix1 r)) : ℝ) : EReal)) (∑ r : Fin 200000, ((cls 1#32 (x1 (ix1 r)) : ℝ) : EReal)))) := by
  rw [val_main_v33_apply, val_main_cst_5_apply, Ideal.ofBits_def, Ideal.ofBits_zero_f32, zero_add]
  refine (sum_idx2 _).trans (Finset.sum_congr rfl fun r _ => Finset.sum_congr rfl fun d _ => ?_)
  rw [val_main_v32_apply, Ideal.mulf_def, val_main_v30_apply, Ideal.mulf_def, mask1_mat', cent1_eq]

/-! ## All rows -/

/-- The overall mean in column `d`: the column sum over the row count. -/
theorem meanAll_eq (x0 : FVec Ideal S200000x128 .f32) (d : Fin 128) :
    val_main_v37 (F := Ideal) x0 (ix1 d) = Ideal.div (∑ r : Fin 200000, x0 (ix2 r d)) (Ideal.ofBits .f32 0x48435000#32) := by
  rw [val_main_v37_apply, Ideal.hostDivf_def, val_main_v35_apply, val_main_v36_apply, val_main_cst_7_apply,
    val_main_cst_6_apply]
  simp only [Ideal.ofBits_def, Ideal.ofBits_zero_f32, zero_add]
  refine congrArg₂ Ideal.div (Finset.sum_congr rfl fun r _ => ?_) rfl
  exact congrArg x0 (funext fun a => Fin.ext (by match a with | ⟨0, _⟩ => rfl | ⟨1, _⟩ => rfl))

/-- An entry centred at its column's overall mean. -/
theorem centAll_eq (x0 : FVec Ideal S200000x128 .f32) (r : Fin 200000) (d : Fin 128) :
    val_main_v40 (F := Ideal) x0 (ix2 r d) = x0 (ix2 r d) - Ideal.div (∑ r : Fin 200000, x0 (ix2 r d)) (Ideal.ofBits .f32 0x48435000#32) := by
  rw [val_main_v40_apply, Ideal.subf_def, val_main_v39_apply, val_main_v38_apply]
  have e : idx_main_v38 (idx_main_v39 (ix2 r d)) = ix1 d := funext fun a => Fin.ext (by match a with | ⟨0, _⟩ => rfl)
  rw [e, meanAll_eq]

/-- The total scatter: the sum of the squares centred at the overall mean. -/
theorem st_eq (x0 : FVec Ideal S200000x128 .f32) (i : S_.Idx) :
    val_main_v42 (F := Ideal) x0 i
      = ∑ r : Fin 200000, ∑ d : Fin 128, (x0 (ix2 r d) - Ideal.div (∑ r : Fin 200000, x0 (ix2 r d)) (Ideal.ofBits .f32 0x48435000#32)) * (x0 (ix2 r d) - Ideal.div (∑ r : Fin 200000, x0 (ix2 r d)) (Ideal.ofBits .f32 0x48435000#32)) := by
  rw [val_main_v42_apply, val_main_cst_8_apply, Ideal.ofBits_def, Ideal.ofBits_zero_f32, zero_add]
  refine (sum_idx2 _).trans (Finset.sum_congr rfl fun r _ => Finset.sum_congr rfl fun d _ => ?_)
  rw [val_main_v41_apply, Ideal.mulf_def, centAll_eq]

/-! ## The result -/

/-- The reference program's result is the two-pass Fisher ratio of the data, with the two class masks. -/
theorem ref_eq (x0 : FVec Ideal Cert.ReferenceIdeal.S200000x128 .f32) (x1 : IVec Cert.ReferenceIdeal.S200000 32)
    (i : Cert.ReferenceIdeal.S_.Idx) :
    Cert.ReferenceIdeal.Read.val_main_v44 (F := Ideal) x0 x1 i
      = Cert.Fisher.ratioTwoPass (ι := Fin 200000) (δ := Fin 128) (Ideal.ofBits .f32 0x48435000#32)
          (fun r d => x0 (ValueIdx.ix2 r d))
          (fun r => ((cls 4294967295#32 (x1 (ValueIdx.ix1 r)) : ℝ) : EReal))
          (fun r => ((cls 1#32 (x1 (ValueIdx.ix1 r)) : ℝ) : EReal)) := by
  rw [val_main_v44_apply, Ideal.hostDivf_def, val_main_v43_apply, Ideal.subf_def, val_main_v34_apply,
    Ideal.addf_def, sw0_eq, sw1_eq, st_eq]
  rfl

end Cert.RefValue

end
-- ==== Proof.FisherAlgebra.lean ====
/-
  The algebra behind the Fisher discriminant ratio: the ratio formed from the five one-pass sums equals the
  ratio formed by two passes (class means first, then centred squares), over the extended reals.

  With a 0/1 class mask `u`, `n = Σ u`, `s d = Σ_i u i · a i d`, `q = Σ_i Σ_d u i · (a i d)²` and mean `c d = s d / n`:
    Σ_i Σ_d u i · (a i d − c d)² = q − 2 Σ_d c d · s d + n Σ_d (c d)² = q − n Σ_d (c d)²,
  which gives the within-class scatters (and, with `u = 1`, the total scatter); and for two complementary classes
    St − Sw = n0 ‖c0‖² + n1 ‖c1‖² − ‖n0 c0 + n1 c1‖² / N = (n0 n1 / N) ‖c0 − c1‖²      (N = n0 + n1).
  When a class is empty its mean is the junk value `⊥`, but every occurrence is multiplied by `0`
  (the class size, or the mask entries), so both sides reduce to the same quotient by `0`.
-/
import proofs.«116562_j1151051235756_2_alg».proof.Proof.FisherSpec

noncomputable section

namespace Cert.Fisher

open Idealize.ShloMosaic

variable {ι δ : Type} [Fintype ι] [Fintype δ]

/-- The quotient of two real numbers with non-zero divisor is the real quotient. -/
theorem div_coe_coe (p : ℝ) {q : ℝ} (h : q ≠ 0) :
    Ideal.div (p : EReal) (q : EReal) = ((p / q : ℝ) : EReal) := by
  rw [Ideal.div_coe h, ← EReal.coe_mul, mul_one_div]

/-- `0 / 0` is the junk value `⊥`. -/
theorem div_zero_zero : Ideal.div 0 0 = (⊥ : EReal) := by simp [Ideal.div]

/-- The weighted scatter about the weighted mean, over the reals: for weights `u` of non-zero total `n`,
    with `s d = Σ_i u i · a i d`,  `Σ_i Σ_d u i · (a i d)² − n · Σ_d (s d / n)² = Σ_i Σ_d u i · (a i d − s d / n)²`. -/
theorem real_class (a : ι → δ → ℝ) (u : ι → ℝ) (hn : (∑ i, u i) ≠ 0) :
    (∑ i, ∑ d, u i * (a i d * a i d))
        - (∑ i, u i) * ∑ d, ((∑ i, u i * a i d) / (∑ i, u i)) * ((∑ i, u i * a i d) / (∑ i, u i))
      = ∑ i, ∑ d, u i * ((a i d - (∑ i, u i * a i d) / (∑ i, u i)) * (a i d - (∑ i, u i * a i d) / (∑ i, u i))) := by
  conv_lhs => rw [Finset.sum_comm, Finset.mul_sum, ← Finset.sum_sub_distrib]
  conv_rhs => rw [Finset.sum_comm]
  refine Finset.sum_congr rfl fun d _ => ?_
  have h : ∀ i, u i * ((a i d - (∑ i, u i * a i d) / (∑ i, u i)) * (a i d - (∑ i, u i * a i d) / (∑ i, u i)))
      = u i * (a i d * a i d) - 2 * ((∑ i, u i * a i d) / (∑ i, u i)) * (u i * a i d)
        + ((∑ i, u i * a i d) / (∑ i, u i)) * ((∑ i, u i * a i d) / (∑ i, u i)) * u i := by
    intro i; ring
  rw [Finset.sum_congr rfl fun i _ => h i, Finset.sum_add_distrib, Finset.sum_sub_distrib, ← Finset.mul_sum,
    ← Finset.mul_sum]
  field_simp
  ring

/-- A family of numbers each `0` or `1` with zero total vanishes identically. -/
theorem mask_eq_zero (u : ι → ℝ) (hu : ∀ i, u i = 0 ∨ u i = 1) (hn : (∑ i, u i) = 0) : u = fun _ => 0 := by
  have hnn : ∀ i ∈ (Finset.univ : Finset ι), 0 ≤ u i := by
    intro i _
    rcases hu i with h | h <;> rw [h] <;> norm_num
  funext i
  exact (Finset.sum_eq_zero_iff_of_nonneg hnn).1 hn i (Finset.mem_univ i)

/-- The class scatter two ways, over the extended reals, for a `0/1` mask `u` (the class may be empty):
    `q − n · Σ_d (s d / n)² = Σ_i Σ_d u i · (a i d − s d / n)²`  with `n = Σ u`, `s d = Σ_i u i · a i d`,
    `q = Σ_i Σ_d u i · (a i d)²`.  For the empty class both sides are `0`: the products with `n = 0` and with
    `u i = 0` vanish whatever the (junk) mean is. -/
theorem class_scatter (a : ι → δ → ℝ) (u : ι → ℝ) (hu : ∀ i, u i = 0 ∨ u i = 1) :
    ((∑ i, ∑ d, u i * (a i d * a i d) : ℝ) : EReal)
        - ((∑ i, u i : ℝ) : EReal) * ∑ d, Ideal.div ((∑ i, u i * a i d : ℝ) : EReal) ((∑ i, u i : ℝ) : EReal)
            * Ideal.div ((∑ i, u i * a i d : ℝ) : EReal) ((∑ i, u i : ℝ) : EReal)
      = ∑ i, ∑ d, (u i : EReal) * (((a i d : EReal) - Ideal.div ((∑ i, u i * a i d : ℝ) : EReal) ((∑ i, u i : ℝ) : EReal))
            * ((a i d : EReal) - Ideal.div ((∑ i, u i * a i d : ℝ) : EReal) ((∑ i, u i : ℝ) : EReal))) := by
  by_cases hn : (∑ i, u i) = 0
  · have hu0 := mask_eq_zero u hu hn
    subst hu0
    simp
  · simp only [div_coe_coe _ hn, ← EReal.coe_mul, ← EReal.coe_sub, ← coe_sum]
    rw [real_class a u hn]

/-- The total scatter about the overall mean, over the reals (`N` the number of rows, non-zero). -/
theorem real_total (a : ι → δ → ℝ) (N : ℝ) (hN : N = (Fintype.card ι : ℝ)) (hN0 : N ≠ 0) :
    (∑ i, ∑ d, a i d * a i d) - N * ∑ d, ((∑ i, a i d) / N) * ((∑ i, a i d) / N)
      = ∑ i, ∑ d, (a i d - (∑ i, a i d) / N) * (a i d - (∑ i, a i d) / N) := by
  have hc : (∑ _i : ι, (1 : ℝ)) = N := by simp [hN]
  have h := real_class a (fun _ => 1) (by rw [hc]; exact hN0)
  simp only [one_mul, hc] at h
  exact h

/-- The two-class identity per column, summed: with `n0, n1` non-zero and `n0 + n1` non-zero,
    `(n0 n1 / (n0 + n1)) Σ_d (s0/n0 − s1/n1)² = n0 Σ_d (s0/n0)² + n1 Σ_d (s1/n1)² − (n0 + n1) Σ_d ((s0 + s1)/(n0 + n1))²`. -/
theorem real_between (s0 s1 : δ → ℝ) (n0 n1 : ℝ) (h0 : n0 ≠ 0) (h1 : n1 ≠ 0) (hN : n0 + n1 ≠ 0) :
    (n0 * n1 / (n0 + n1)) * ∑ d, (s0 d / n0 - s1 d / n1) * (s0 d / n0 - s1 d / n1)
      = n0 * (∑ d, (s0 d / n0) * (s0 d / n0)) + n1 * (∑ d, (s1 d / n1) * (s1 d / n1))
        - (n0 + n1) * ∑ d, ((s0 d + s1 d) / (n0 + n1)) * ((s0 d + s1 d) / (n0 + n1)) := by
  simp only [Finset.mul_sum, ← Finset.sum_add_distrib, ← Finset.sum_sub_distrib]
  refine Finset.sum_congr rfl fun d _ => ?_
  field_simp
  ring

/-- The one-pass ratio equals the two-pass ratio.  Both within-class scatters agree by `class_scatter`
    (also for an empty class), so it remains to see that the between-class scatter of the one-pass form,
    `(n0 n1 / N) Σ_d (mean0 d − mean1 d)²`, equals `St − Sw`: a real identity when both classes are non-empty,
    and `0 = St − St` (a finite number minus itself) when one class is empty and the other is everything. -/
theorem ratio_eq {ι δ : Type} [Fintype ι] [Fintype δ] (a : ι → δ → ℝ) (u0 u1 : ι → ℝ)
    (hu : ∀ i, (u0 i = 1 ∧ u1 i = 0) ∨ (u0 i = 0 ∧ u1 i = 1))
    (N : ℝ) (hN : N = (Fintype.card ι : ℝ)) (hN0 : N ≠ 0) :
    ratioOfStats (N : EReal) (fun d => ((∑ i, a i d : ℝ) : EReal)) (fun d => ((∑ i, u0 i * a i d : ℝ) : EReal))
        ((∑ i, ∑ d, a i d * a i d : ℝ) : EReal) ((∑ i, ∑ d, u0 i * (a i d * a i d) : ℝ) : EReal) ((∑ i, u0 i : ℝ) : EReal)
      = ratioTwoPass (N : EReal) (fun i d => (a i d : EReal)) (fun i => (u0 i : EReal)) (fun i => (u1 i : EReal)) := by
  have h0 : ∀ i, u0 i = 0 ∨ u0 i = 1 := fun i => by rcases hu i with h | h <;> simp [h.1]
  have h1 : ∀ i, u1 i = 0 ∨ u1 i = 1 := fun i => by rcases hu i with h | h <;> simp [h.2]
  have hs : ∀ i, u1 i = 1 - u0 i := fun i => by rcases hu i with h | h <;> simp [h.1, h.2]
  have hc : (∑ _i : ι, (1 : ℝ)) = N := by simp [hN]
  have hn : (∑ i, u1 i) = N - ∑ i, u0 i := by
    rw [← hc, ← Finset.sum_sub_distrib]; exact Finset.sum_congr rfl fun i _ => hs i
  have hsd : ∀ d, (∑ i, u1 i * a i d) = (∑ i, a i d) - ∑ i, u0 i * a i d := by
    intro d
    rw [← Finset.sum_sub_distrib]; exact Finset.sum_congr rfl fun i _ => by rw [hs i]; ring
  have hq : (∑ i, ∑ d, u1 i * (a i d * a i d)) = (∑ i, ∑ d, a i d * a i d) - ∑ i, ∑ d, u0 i * (a i d * a i d) := by
    rw [← Finset.sum_sub_distrib]; refine Finset.sum_congr rfl fun i _ => ?_
    rw [← Finset.sum_sub_distrib]; exact Finset.sum_congr rfl fun d _ => by rw [hs i]; ring
  have hm : ∀ (u : ι → ℝ) d, ∑ i, (a i d : EReal) * (u i : EReal) = ((∑ i, u i * a i d : ℝ) : EReal) := by
    intro u d
    rw [coe_sum]; exact Finset.sum_congr rfl fun i _ => by rw [← EReal.coe_mul, mul_comm]
  simp only [ratioOfStats, ratioTwoPass]
  simp only [← EReal.coe_sub, ← hn, ← hsd, ← hq, hm, ← coe_sum]
  rw [class_scatter a u0 h0, class_scatter a u1 h1]
  congr 1
  have hd0 : Ideal.div 0 (N : EReal) = 0 := by rw [← EReal.coe_zero, div_coe_coe 0 hN0, zero_div]
  by_cases hn0 : (∑ i, u0 i) = 0
  · -- class 0 is empty: u0 = 0 and u1 = 1 everywhere
    have e0 := mask_eq_zero u0 h0 hn0
    have e1 : u1 = fun _ => 1 := funext fun i => by rw [hs i, e0]; norm_num
    subst e0; subst e1
    simp only [Finset.sum_const_zero, EReal.coe_zero, EReal.coe_one, zero_mul, one_mul, zero_add, hc, hd0,
      div_coe_coe _ hN0, ← EReal.coe_sub, ← EReal.coe_mul, ← coe_sum, sub_self]
  by_cases hn1 : (∑ i, u1 i) = 0
  · -- class 1 is empty: u1 = 0 and u0 = 1 everywhere
    have e1 := mask_eq_zero u1 h1 hn1
    have e0 : u0 = fun _ => 1 := funext fun i => by have := hs i; rw [e1] at this; linarith
    subst e1; subst e0
    simp only [Finset.sum_const_zero, EReal.coe_zero, EReal.coe_one, zero_mul, mul_zero, one_mul, add_zero, hc, hd0,
      div_coe_coe _ hN0, ← EReal.coe_sub, ← EReal.coe_mul, ← coe_sum, sub_self]
  · -- both classes non-empty: everything is a real number
    simp only [div_coe_coe _ hn0, div_coe_coe _ hn1, div_coe_coe _ hN0, ← EReal.coe_mul, ← EReal.coe_sub,
      ← EReal.coe_add, ← coe_sum]
    congr 1
    rw [← real_class a u0 hn0, ← real_class a u1 hn1, ← real_total a N hN hN0]
    have hNs : N = (∑ i, u0 i) + ∑ i, u1 i := by rw [hn]; ring
    have hsall : ∀ d, (∑ i, a i d) = (∑ i, u0 i * a i d) + ∑ i, u1 i * a i d := fun d => by rw [hsd d]; ring
    have hqall : (∑ i, ∑ d, a i d * a i d)
        = (∑ i, ∑ d, u0 i * (a i d * a i d)) + ∑ i, ∑ d, u1 i * (a i d * a i d) := by rw [hq]; ring
    rw [hqall]
    simp only [hsall]
    rw [hNs, real_between _ _ _ _ hn0 hn1 (by rw [← hNs]; exact hN0)]
    ring

end Cert.Fisher

end
-- ==== Proof.PreDecode.lean ====
/-
  The precondition decoded.  The printed predicate is the conjunction of two "for all" tests, each a
  reduction by AND, from the word 1, of an array of one-bit words down to the one-index shape:
    • over the float input, the bit of  |x| < +∞  (the absolute value max x (-x) compared with the
      word 0x7F800000, which denotes +∞);
    • over the label input, the bit of  (l = -1) OR (l = 1)  (two equality tests against broadcast
      constants, joined by a one-bit OR).
  If the predicate's one word is 1, both reductions are 1, so every bit they met is 1.  For a float entry
  this says max x (-x) < ⊤ in the extended reals, which excludes x = ⊤ (max is ⊤) and x = ⊥ (-⊥ = ⊤):
  x is a real number.  For a label entry it says one of the two equality bits is 1: l is the word of -1
  or the word of 1.
-/
import proofs.«116562_j1151051235756_2_alg».proof.Pre_finite_inputs
import proofs.«116562_j1151051235756_2_alg».proof.Proof.Gen.Pre_finite_inputs
import Idealize.ShloMosaic.PureOps.Ideal
import Idealize.ShloMosaic.Lib.ReduceAll
import Idealize.ShloMosaic.Lib.ValueIdx

noncomputable section

namespace Cert.PreDecode

open Idealize.ShloMosaic Idealize.ShloMosaic.ValueIdx
open Cert.Pre_finite_inputs

/-- The scalar shape has exactly one index (there is no axis to give a coordinate on). -/
instance subsingleton_scalar_idx : Subsingleton S_.Idx := ⟨fun a b => funext fun d => d.elim0⟩

/-- The f32 word 0x7F800000 (sign 0, exponent all ones, fraction 0) denotes +∞. -/
theorem inf_word : Ideal.ofBits .f32 0x7F800000#32 = (⊤ : EReal) := by
  simp [Ideal.ofBits, Ideal.ieee]

/-- A comparison's one-bit word is 1 only when the compared proposition holds. -/
theorem of_ofBool_decide_eq_one {p : Prop} [Decidable p] (h : BitVec.ofBool (decide p) = 1#1) : p := by
  by_contra hn
  rw [decide_eq_false hn] at h
  exact absurd h (by decide)

/-- An extended real whose absolute value max x (-x) lies strictly below ⊤ is a real number:
    at x = ⊤ the maximum is ⊤, and at x = ⊥ it is -⊥ = ⊤. -/
theorem real_of_abs_lt_top (x : EReal) (h : max x (-x) < ⊤) : ∃ r : ℝ, x = (r : EReal) := by
  induction x using EReal.rec with
  | bot => simp at h
  | coe r => exact ⟨r, rfl⟩
  | top => simp at h

/-- One float entry: the bit of |x| < +∞ being 1 makes x a real number. -/
theorem real_of_finite_bit (x : Ideal .f32)
    (h : FloatOps.cmpf .olt (FloatOps.hostAbsf x) (FloatOps.ofBits (F := Ideal) .f32 0x7F800000#32) = 1#1) :
    ∃ r : ℝ, x = (r : EReal) := by
  have h' : BitVec.ofBool (decide (max (x : EReal) (-(x : EReal)) < Ideal.ofBits .f32 0x7F800000#32)) = 1#1 := h
  rw [inf_word] at h'
  exact real_of_abs_lt_top x (of_ofBool_decide_eq_one h')

/-- One label entry: the bit of (l = a) OR (l = b) being 1 makes l one of the two words. -/
theorem label_of_bit (l a b : BitVec 32)
    (h : IntOp.ori (IntOp.cmpi .eq l a) (IntOp.cmpi .eq l b) = 1#1) : l = a ∨ l = b := by
  rcases IntOp.ori_eq_one.1 h with h1 | h1
  · exact Or.inl (IntOp.cmpi_eq.1 h1)
  · exact Or.inr (IntOp.cmpi_eq.1 h1)

/-- THE PRECONDITION DECODED: if the printed predicate's word is 1, every float entry is a real number and
    every label entry is the word of -1 or the word of 1. -/
theorem decode [Cert.Pre_finite_inputs.Facts] (x : FVec Ideal Cert.Pre_finite_inputs.S200000x128 .f32)
    (l : IVec Cert.Pre_finite_inputs.S200000 32)
    (h : Cert.Pre_finite_inputs.fn (F := Ideal) x l = fun _ => 1#1) :
    (∀ i, ∃ r : ℝ, x i = (r : EReal)) ∧ (∀ i, l i = 4294967295#32 ∨ l i = 1#32) := by
  -- the predicate's one word, with the printed function opened: an AND of the two reductions' words
  have e := congrFun h ix0
  dsimp only [Cert.Pre_finite_inputs.fn] at e
  obtain ⟨e1, e2⟩ := IntOp.andi_eq_one.1 e
  refine ⟨fun i => ?_, fun i => ?_⟩
  · -- the float reduction is 1, so the bit at i is 1; the broadcast constant read at i is the constant
    exact real_of_finite_bit (x i) (Host.reduce_andi_all _ _ _ _ ix0 e1 i)
  · -- the label reduction is 1, so the OR at i is 1; each broadcast constant read at i is the constant
    exact label_of_bit (l i) _ _ (Host.reduce_andi_all _ _ _ _ ix0 e2 i)

end Cert.PreDecode

end
-- ==== Proof.Bridge.lean ====
/-
  The two programs compute the same ratio.

  Under the precondition every data entry is a real number and every label is −1 or 1.  The kernel's result is the
  ratio formed from five sums over all rows (the result arrays' rows added by the host); the reference's result is the
  two-pass ratio; and for a 0/1 mask pair that partitions the rows the two ratios are equal on the extended reals,
  empty classes included.
-/
import proofs.«116562_j1151051235756_2_alg».proof.Defs
import proofs.«116562_j1151051235756_2_alg».proof.Proof.KValue
import proofs.«116562_j1151051235756_2_alg».proof.Proof.RefValue
import proofs.«116562_j1151051235756_2_alg».proof.Proof.FisherAlgebra
import proofs.«116562_j1151051235756_2_alg».proof.Proof.PreDecode
import proofs.«116562_j1151051235756_2_alg».proof.Proof.Gen.ReferenceIdeal.Run
import proofs.«116562_j1151051235756_2_alg».proof.Proof.Gen.ReferenceIdeal.Read
import proofs.«116562_j1151051235756_2_alg».proof.Proof.Gen.Pre_finite_inputs

noncomputable section

open scoped BigOperators
open Idealize.ShloMosaic Idealize.ShloMosaic.TcCoe Idealize.SL.Sem Idealize.ShloMosaic.ValueIdx

namespace Cert.Proof.Bridge

open Cert.KernelIdeal.Pay (mu mu_eq)
open Cert.RefValue (cls)

/-- The f32 word of the number of rows is the number 200000. -/
theorem rows_word : Ideal.ofBits .f32 0x48435000#32 = ((200000 : ℝ) : EReal) := by
  simp [Ideal.ofBits, Ideal.ieee]
  rw [← EReal.coe_mul, EReal.coe_eq_coe_iff]
  norm_num

/-- The kernel's class-0 indicator is the reference's class-0 mask. -/
theorem mu_cls (l : BitVec 32) : mu l = ((cls 4294967295#32 l : ℝ) : EReal) := by
  rw [mu_eq]
  unfold cls
  split_ifs <;> simp

/-- A label that is −1 or 1 is in exactly one of the two classes. -/
theorem cls_partition (l : BitVec 32) (h : l = 4294967295#32 ∨ l = 1#32) :
    (cls 4294967295#32 l = 1 ∧ cls 1#32 l = 0) ∨ (cls 4294967295#32 l = 0 ∧ cls 1#32 l = 1) := by
  unfold cls
  rcases h with rfl | rfl
  · left; exact ⟨if_pos rfl, if_neg (by decide)⟩
  · right; exact ⟨if_neg (by decide), if_pos rfl⟩

/-- THE BRIDGE: under the precondition, the kernel's result is the reference's, at every device. -/
theorem kernel_eq_ref (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = fun _ => 1#1)
    (j : Cert.KernelIdeal.S_.Idx) :
    Cert.KernelIdeal.Chain.result m c j
      = Cert.ReferenceIdeal.Read.val_main_v44 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) j := by
  obtain ⟨hx, hl⟩ := Cert.PreDecode.decode _ _ hpre
  choose a ha using hx
  rw [Cert.KernelIdeal.KValue.result_eq m c _ rfl _ rfl j, Cert.RefValue.ref_eq]
  have hu := fun r : Fin 200000 => cls_partition _ (hl (ix1 r))
  have key := Cert.Fisher.ratio_eq (ι := Fin 200000) (δ := Fin 128) (fun r d => a (ix2 r d))
    (fun r => cls 4294967295#32 (m ((c.tc : Thread Cert.KernelIdeal.nD Cert.KernelIdeal.τ).loc Cert.KernelIdeal.main_arg1) (ix1 r)))
    (fun r => cls 1#32 (m ((c.tc : Thread Cert.KernelIdeal.nD Cert.KernelIdeal.τ).loc Cert.KernelIdeal.main_arg1) (ix1 r)))
    hu 200000 (by simp) (by norm_num)
  simp only [Cert.Fisher.coe_sum, EReal.coe_mul] at key
  simp only [ha, mu_cls, rows_word]
  exact key

end Cert.Proof.Bridge

end
-- ==== Proof.lean ====
/-
  The certificate's five claims.

  The kernel streams the 200000 × 128 data once, eight blocks of 25000 rows over a 2 × 4 grid, keeping five running
  sums per core (column sums, class-0 column sums, the sum of squares, the class-0 sum of squares, the class-0 count);
  the host adds the two cores' sums and forms the Fisher ratio  Sw / Sb  from them, with  n1 = N − n0  and the two-class
  identity  Sb = (n0 n1 / N) ‖mean0 − mean1‖².  The reference forms the same ratio in two passes, with  Sb = St − Sw.
  Over the extended reals the two agree whenever every data entry is finite and every label is −1 or 1 (the
  precondition), an empty class included: its mean is the junk value of 0 / 0 on both sides, and every term it enters
  is multiplied by the empty class's size 0.

  • the three frames: the frame certificates of the two kernel programs, and the reference's run with its result dropped;
  • `preserves`: the ideal pass rewrote nothing;
  • `algebraic`: the kernel's run read off its frame (Proof/KChain, KArrays, KRun, KValue), the reference's run read one
    operation at a time (Proof/RefValue), the precondition decoded (Proof/PreDecode), and the equality of the two ratios
    (Proof/FisherSpec, FisherAlgebra), joined in Proof/Bridge.
-/
import proofs.«116562_j1151051235756_2_alg».proof.Defs
import proofs.«116562_j1151051235756_2_alg».proof.Proof.Gen.Kernel
import proofs.«116562_j1151051235756_2_alg».proof.Proof.KernelFrameP
import proofs.«116562_j1151051235756_2_alg».proof.Proof.Gen.KernelIdeal
import proofs.«116562_j1151051235756_2_alg».proof.Proof.KernelIdealFrameP
import proofs.«116562_j1151051235756_2_alg».proof.Proof.Gen.ReferenceIdeal
import proofs.«116562_j1151051235756_2_alg».proof.Proof.Gen.ReferenceIdeal.Run
import proofs.«116562_j1151051235756_2_alg».proof.Proof.Gen.ReferenceIdeal.Read
import proofs.«116562_j1151051235756_2_alg».proof.Proof.Gen.Pre_finite_inputs
import proofs.«116562_j1151051235756_2_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.GenP.frame m ρ

theorem frame_ki : Cert.frame_KernelIdeal (hKernelIdeal := Cert.KernelIdeal.Gen.facts) (hPre_finite_inputs := Cert.Pre_finite_inputs.Gen.facts) :=
  fun m ρ _ => Cert.KernelIdeal.GenP.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The kernel's result array ends at the ratio from the five one-pass sums, the reference's at the two-pass ratio; under
    the precondition they are one extended real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Chain.result m c, Cert.KernelIdeal.Chain.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, (hagree c).1, (hagree c).2]
  funext j
  exact (Cert.Proof.Bridge.kernel_eq_ref m c (hpre c) j).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
